-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x1024 : Shape := ⟨2, ![4096, 1024]⟩
abbrev S1024x4096 : Shape := ⟨2, ![1024, 4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4x4096x1024 .f32) (main_arg1 : FVec F S4096x1024 .f32) (main_arg2 : FVec F S1024x4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S4x4096x1024 : Shape := ⟨3, ![4, 4096, 1024]⟩
abbrev S4096x1024 : Shape := ⟨2, ![4096, 1024]⟩
abbrev S1024x4096 : Shape := ⟨2, ![1024, 4096]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S_ : Shape := ⟨0, ![]⟩
abbrev S1024x1 : Shape := ⟨2, ![1024, 1]⟩
abbrev S1x4096 : Shape := ⟨2, ![1, 4096]⟩
abbrev S3072x768 : Shape := ⟨2, ![3072, 768]⟩
abbrev S768x3072 : Shape := ⟨2, ![768, 3072]⟩
abbrev S16384x1024 : Shape := ⟨2, ![16384, 1024]⟩
abbrev S256x768 : Shape := ⟨2, ![256, 768]⟩
abbrev S256x1024 : Shape := ⟨2, ![256, 1024]⟩
abbrev S256x64 : Shape := ⟨2, ![256, 64]⟩
abbrev S256 : Shape := ⟨1, ![256]⟩
abbrev S256x1 : Shape := ⟨2, ![256, 1]⟩
abbrev S256x128 : Shape := ⟨2, ![256, 128]⟩
abbrev S128x512 : Shape := ⟨2, ![128, 512]⟩
abbrev S256x512 : Shape := ⟨2, ![256, 512]⟩
abbrev S256x256 : Shape := ⟨2, ![256, 256]⟩
abbrev S256x384 : Shape := ⟨2, ![256, 384]⟩
abbrev S384x512 : Shape := ⟨2, ![384, 512]⟩
abbrev S512x512 : Shape := ⟨2, ![512, 512]⟩
abbrev S256x640 : Shape := ⟨2, ![256, 640]⟩
abbrev S640x512 : Shape := ⟨2, ![640, 512]⟩
abbrev S768x512 : Shape := ⟨2, ![768, 512]⟩
abbrev S256x3072 : Shape := ⟨2, ![256, 3072]⟩
abbrev S512x128 : Shape := ⟨2, ![512, 128]⟩
abbrev S1024x128 : Shape := ⟨2, ![1024, 128]⟩
abbrev S256x1536 : Shape := ⟨2, ![256, 1536]⟩
abbrev S1536x128 : Shape := ⟨2, ![1536, 128]⟩
abbrev S256x2048 : Shape := ⟨2, ![256, 2048]⟩
abbrev S2048x128 : Shape := ⟨2, ![2048, 128]⟩
abbrev S256x2560 : Shape := ⟨2, ![256, 2560]⟩
abbrev S2560x128 : Shape := ⟨2, ![2560, 128]⟩
abbrev S3072x128 : Shape := ⟨2, ![3072, 128]⟩

abbrev nBuf : Space → Nat
  | .hbm => 62
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1024x4096, .f32⟩
  | .hbm, ⟨3, _⟩ => ⟨S4096, .i32⟩
  | .hbm, ⟨4, _⟩ => ⟨S4096x1, .i32⟩
  | .hbm, ⟨5, _⟩ => ⟨S1024, .i32⟩
  | .hbm, ⟨6, _⟩ => ⟨S1x1024, .i32⟩
  | .hbm, ⟨7, _⟩ => ⟨S_, .i32⟩
  | .hbm, ⟨8, _⟩ => ⟨S1x1024, .i32⟩
  | .hbm, ⟨9, _⟩ => ⟨S1x1024, .i32⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x1024, .i32⟩
  | .hbm, ⟨14, _⟩ => ⟨S4096x1024, .i32⟩
  | .hbm, ⟨15, _⟩ => ⟨S4096x1024, .i1⟩
  | .hbm, ⟨16, _⟩ => ⟨S_, .i32⟩
  | .hbm, ⟨17, _⟩ => ⟨S1x1024, .i32⟩
  | .hbm, ⟨18, _⟩ => ⟨S1x1024, .i1⟩
  | .hbm, ⟨19, _⟩ => ⟨S4096x1024, .i1⟩
  | .hbm, ⟨20, _⟩ => ⟨S4096x1024, .i1⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S4096x1024, .i1⟩
  | .hbm, ⟨25, _⟩ => ⟨S4096x1024, .i1⟩
  | .hbm, ⟨26, _⟩ => ⟨S4096x1024, .f32⟩
  | .hbm, ⟨27, _⟩ => ⟨S1024, .i32⟩
  | .hbm, ⟨28, _⟩ => ⟨S1024x1, .i32⟩
  | .hbm, ⟨29, _⟩ => ⟨S4096, .i32⟩
  | .hbm, ⟨30, _⟩ => ⟨S1x4096, .i32⟩
  | .hbm, ⟨31, _⟩ => ⟨S_, .i32⟩
  | .hbm, ⟨32, _⟩ => ⟨S1x4096, .i32⟩
  | .hbm, ⟨33, _⟩ => ⟨S1x4096, .i32⟩
  | .hbm, ⟨34, _⟩ => ⟨S_, .i32⟩
  | .hbm, ⟨35, _⟩ => ⟨S1024x1, .i32⟩
  | .hbm, ⟨36, _⟩ => ⟨S1024x1, .i32⟩
  | .hbm, ⟨37, _⟩ => ⟨S1024x4096, .i32⟩
  | .hbm, ⟨38, _⟩ => ⟨S1024x4096, .i32⟩
  | .hbm, ⟨39, _⟩ => ⟨S1024x4096, .i1⟩
  | .hbm, ⟨40, _⟩ => ⟨S_, .i32⟩
  | .hbm, ⟨41, _⟩ => ⟨S1x4096, .i32⟩
  | .hbm, ⟨42, _⟩ => ⟨S1x4096, .i1⟩
  | .hbm, ⟨43, _⟩ => ⟨S1024x4096, .i1⟩
  | .hbm, ⟨44, _⟩ => ⟨S1024x4096, .i1⟩
  | .hbm, ⟨45, _⟩ => ⟨S_, .i32⟩
  | .hbm, ⟨46, _⟩ => ⟨S1024x1, .i32⟩
  | .hbm, ⟨47, _⟩ => ⟨S1024x1, .i1⟩
  | .hbm, ⟨48, _⟩ => ⟨S1024x4096, .i1⟩
  | .hbm, ⟨49, _⟩ => ⟨S1024x4096, .i1⟩
  | .hbm, ⟨50, _⟩ => ⟨S1024x4096, .f32⟩
  | .hbm, ⟨51, _⟩ => ⟨S4096x1024, .f32⟩
  | .hbm, ⟨52, _⟩ => ⟨S4096x1024, .bf16⟩
  | .hbm, ⟨53, _⟩ => ⟨S1024x4096, .f32⟩
  | .hbm, ⟨54, _⟩ => ⟨S1024x4096, .bf16⟩
  | .hbm, ⟨55, _⟩ => ⟨S3072x768, .bf16⟩
  | .hbm, ⟨56, _⟩ => ⟨S768x3072, .bf16⟩
  | .hbm, ⟨57, _⟩ => ⟨S768x3072, .bf16⟩
  | .hbm, ⟨58, _⟩ => ⟨S3072x768, .bf16⟩
  | .hbm, ⟨59, _⟩ => ⟨S16384x1024, .f32⟩
  | .hbm, ⟨60, _⟩ => ⟨S16384x1024, .f32⟩
  | .hbm, ⟨61, _⟩ => ⟨S4x4096x1024, .f32⟩
  | .local _ .vmem, ⟨0, _⟩ => ⟨S256x768, .f32⟩
  | .local _ .vmem, ⟨1, _⟩ => ⟨S256x768, .f32⟩
  | .local _ .vmem, ⟨2, _⟩ => ⟨S768x3072, .bf16⟩
  | .local _ .vmem, ⟨3, _⟩ => ⟨S3072x768, .bf16⟩
  | .local _ .vmem, ⟨4, _⟩ => ⟨S256x1024, .f32⟩
  | .local _ .vmem, ⟨5, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S4096_S4096x1_0 : S4096.BroadcastsInDim S4096x1 (![0] : Fin 1 → Fin S4096x1.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S_S4096x1 : S_.BroadcastsInDim S4096x1 (![] : Fin 0 → Fin S4096x1.rank)
  bcast_S1x1024_S4096x1024_0_1 : S1x1024.BroadcastsInDim S4096x1024 (![0, 1] : Fin 2 → Fin S4096x1024.rank)
  bcast_S4096x1_S4096x1024_0_1 : S4096x1.BroadcastsInDim S4096x1024 (![0, 1] : Fin 2 → Fin S4096x1024.rank)
  bcast_S1024_S1024x1_0 : S1024.BroadcastsInDim S1024x1 (![0] : Fin 1 → Fin S1024x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S_S1024x1 : S_.BroadcastsInDim S1024x1 (![] : Fin 0 → Fin S1024x1.rank)
  bcast_S1x4096_S1024x4096_0_1 : S1x4096.BroadcastsInDim S1024x4096 (![0, 1] : Fin 2 → Fin S1024x4096.rank)
  bcast_S1024x1_S1024x4096_0_1 : S1024x1.BroadcastsInDim S1024x4096 (![0, 1] : Fin 2 → Fin S1024x4096.rank)
  bitsLt_bf16_f32 : FTy.bits .bf16 < FTy.bits .f32
  slices_S4096x1024_S3072x768_0_0 : S4096x1024.Slices ![0, 0] S3072x768
  transposes_S3072x768_S768x3072_1_0 : S3072x768.Transposes [1, 0] S768x3072
  slices_S1024x4096_S768x3072_0_0 : S1024x4096.Slices ![0, 0] S768x3072
  transposes_S768x3072_S3072x768_1_0 : S768x3072.Transposes [1, 0] S3072x768
  shapeCasts_S4x4096x1024_S16384x1024 : S4x4096x1024.ShapeCasts S16384x1024
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S256x768_o0_0_S256x64 : S256x768.Slices ![0, 0] S256x64
  reduces_S256x64_S256 : S256x64.Reduces [1] S256
  shapeCasts_S256_S256x1 : S256.ShapeCasts S256x1
  broadcasts_S256x1_S256x64 : S256x1.Broadcasts S256x64
  slices_S256x768_o0_64_S256x64 : S256x768.Slices ![0, 64] S256x64
  slices_S256x768_o0_128_S256x64 : S256x768.Slices ![0, 128] S256x64
  slices_S256x768_o0_192_S256x64 : S256x768.Slices ![0, 192] S256x64
  slices_S256x768_o0_256_S256x64 : S256x768.Slices ![0, 256] S256x64
  slices_S256x768_o0_320_S256x64 : S256x768.Slices ![0, 320] S256x64
  slices_S256x768_o0_384_S256x64 : S256x768.Slices ![0, 384] S256x64
  slices_S256x768_o0_448_S256x64 : S256x768.Slices ![0, 448] S256x64
  slices_S256x768_o0_512_S256x64 : S256x768.Slices ![0, 512] S256x64
  slices_S256x768_o0_576_S256x64 : S256x768.Slices ![0, 576] S256x64
  slices_S256x768_o0_640_S256x64 : S256x768.Slices ![0, 640] S256x64
  slices_S256x768_o0_704_S256x64 : S256x768.Slices ![0, 704] S256x64
  concatenates_S256x64_S256x64_S256x64_S256x64_S256x64_S256x64_S256x64_S256x64_S256x64_S256x64_S256x64_S256x64_S256x768_d1 : Shape.Concatenates [S256x64, S256x64, S256x64, S256x64, S256x64, S256x64, S256x64, S256x64, S256x64, S256x64, S256x64, S256x64] S256x768 1
  slices_S256x768_o0_0_S256x128 : S256x768.Slices ![0, 0] S256x128
  inb_S768x3072_S128x512_0_0 : ∀ a, (![0, 0] : Fin 2 → Nat) a + S128x512.size a ≤ S768x3072.size a
  h_S128x512 : 0 < S128x512.numel
  shapeCasts_S128x512_S128x512 : S128x512.ShapeCasts S128x512
  slices_S256x768_o0_0_S256x256 : S256x768.Slices ![0, 0] S256x256
  inb_S768x3072_S256x512_0_512 : ∀ a, (![0, 512] : Fin 2 → Nat) a + S256x512.size a ≤ S768x3072.size a
  h_S256x512 : 0 < S256x512.numel
  shapeCasts_S256x512_S256x512 : S256x512.ShapeCasts S256x512
  slices_S256x768_o0_0_S256x384 : S256x768.Slices ![0, 0] S256x384
  inb_S768x3072_S384x512_0_1024 : ∀ a, (![0, 1024] : Fin 2 → Nat) a + S384x512.size a ≤ S768x3072.size a
  h_S384x512 : 0 < S384x512.numel
  shapeCasts_S384x512_S384x512 : S384x512.ShapeCasts S384x512
  slices_S256x768_o0_0_S256x512 : S256x768.Slices ![0, 0] S256x512
  inb_S768x3072_S512x512_0_1536 : ∀ a, (![0, 1536] : Fin 2 → Nat) a + S512x512.size a ≤ S768x3072.size a
  h_S512x512 : 0 < S512x512.numel
  shapeCasts_S512x512_S512x512 : S512x512.ShapeCasts S512x512
  slices_S256x768_o0_0_S256x640 : S256x768.Slices ![0, 0] S256x640
  inb_S768x3072_S640x512_0_2048 : ∀ a, (![0, 2048] : Fin 2 → Nat) a + S640x512.size a ≤ S768x3072.size a
  h_S640x512 : 0 < S640x512.numel
  shapeCasts_S640x512_S640x512 : S640x512.ShapeCasts S640x512
  inb_S768x3072_S768x512_0_2560 : ∀ a, (![0, 2560] : Fin 2 → Nat) a + S768x512.size a ≤ S768x3072.size a
  h_S768x512 : 0 < S768x512.numel
  shapeCasts_S768x512_S768x512 : S768x512.ShapeCasts S768x512
  concatenates_S256x512_S256x512_S256x512_S256x512_S256x512_S256x512_S256x3072_d1 : Shape.Concatenates [S256x512, S256x512, S256x512, S256x512, S256x512, S256x512] S256x3072 1
  slices_S256x3072_o0_0_S256x512 : S256x3072.Slices ![0, 0] S256x512
  inb_S3072x768_S512x128_0_0 : ∀ a, (![0, 0] : Fin 2 → Nat) a + S512x128.size a ≤ S3072x768.size a
  h_S512x128 : 0 < S512x128.numel
  shapeCasts_S512x128_S512x128 : S512x128.ShapeCasts S512x128
  slices_S256x3072_o0_0_S256x1024 : S256x3072.Slices ![0, 0] S256x1024
  inb_S3072x768_S1024x128_0_128 : ∀ a, (![0, 128] : Fin 2 → Nat) a + S1024x128.size a ≤ S3072x768.size a
  h_S1024x128 : 0 < S1024x128.numel
  shapeCasts_S1024x128_S1024x128 : S1024x128.ShapeCasts S1024x128
  slices_S256x3072_o0_0_S256x1536 : S256x3072.Slices ![0, 0] S256x1536
  inb_S3072x768_S1536x128_0_256 : ∀ a, (![0, 256] : Fin 2 → Nat) a + S1536x128.size a ≤ S3072x768.size a
  h_S1536x128 : 0 < S1536x128.numel
  shapeCasts_S1536x128_S1536x128 : S1536x128.ShapeCasts S1536x128
  slices_S256x3072_o0_0_S256x2048 : S256x3072.Slices ![0, 0] S256x2048
  inb_S3072x768_S2048x128_0_384 : ∀ a, (![0, 384] : Fin 2 → Nat) a + S2048x128.size a ≤ S3072x768.size a
  h_S2048x128 : 0 < S2048x128.numel
  shapeCasts_S2048x128_S2048x128 : S2048x128.ShapeCasts S2048x128
  slices_S256x3072_o0_0_S256x2560 : S256x3072.Slices ![0, 0] S256x2560
  inb_S3072x768_S2560x128_0_512 : ∀ a, (![0, 512] : Fin 2 → Nat) a + S2560x128.size a ≤ S3072x768.size a
  h_S2560x128 : 0 < S2560x128.numel
  shapeCasts_S2560x128_S2560x128 : S2560x128.ShapeCasts S2560x128
  inb_S3072x768_S3072x128_0_640 : ∀ a, (![0, 640] : Fin 2 → Nat) a + S3072x128.size a ≤ S3072x768.size a
  h_S3072x128 : 0 < S3072x128.numel
  shapeCasts_S3072x128_S3072x128 : S3072x128.ShapeCasts S3072x128
  concatenates_S256x128_S256x128_S256x128_S256x128_S256x128_S256x128_S256x768_d1 : Shape.Concatenates [S256x128, S256x128, S256x128, S256x128, S256x128, S256x128] S256x768 1
  inb_S256x1024_S256x768_0_0 : ∀ a, (![0, 0] : Fin 2 → Nat) a + S256x768.size a ≤ S256x1024.size a
  inb_S256x1024_S256x256_0_768 : ∀ a, (![0, 768] : Fin 2 → Nat) a + S256x256.size a ≤ S256x1024.size a
  h_S256x256 : 0 < S256x256.numel
  shapeCasts_S16384x1024_S4x4096x1024 : S16384x1024.ShapeCasts S4x4096x1024
  dot_S256x128_S128x512_S256x512_1_0_0_1_n_n_wf : DotDims.WF S256x128 S128x512 S256x512 [1] [0] [0] [1] [] []
  dot_S256x256_S256x512_S256x512_1_0_0_1_n_n_wf : DotDims.WF S256x256 S256x512 S256x512 [1] [0] [0] [1] [] []
  dot_S256x384_S384x512_S256x512_1_0_0_1_n_n_wf : DotDims.WF S256x384 S384x512 S256x512 [1] [0] [0] [1] [] []
  dot_S256x512_S512x512_S256x512_1_0_0_1_n_n_wf : DotDims.WF S256x512 S512x512 S256x512 [1] [0] [0] [1] [] []
  dot_S256x640_S640x512_S256x512_1_0_0_1_n_n_wf : DotDims.WF S256x640 S640x512 S256x512 [1] [0] [0] [1] [] []
  dot_S256x768_S768x512_S256x512_1_0_0_1_n_n_wf : DotDims.WF S256x768 S768x512 S256x512 [1] [0] [0] [1] [] []
  dot_S256x512_S512x128_S256x128_1_0_0_1_n_n_wf : DotDims.WF S256x512 S512x128 S256x128 [1] [0] [0] [1] [] []
  dot_S256x1024_S1024x128_S256x128_1_0_0_1_n_n_wf : DotDims.WF S256x1024 S1024x128 S256x128 [1] [0] [0] [1] [] []
  dot_S256x1536_S1536x128_S256x128_1_0_0_1_n_n_wf : DotDims.WF S256x1536 S1536x128 S256x128 [1] [0] [0] [1] [] []
  dot_S256x2048_S2048x128_S256x128_1_0_0_1_n_n_wf : DotDims.WF S256x2048 S2048x128 S256x128 [1] [0] [0] [1] [] []
  dot_S256x2560_S2560x128_S256x128_1_0_0_1_n_n_wf : DotDims.WF S256x2560 S2560x128 S256x128 [1] [0] [0] [1] [] []
  dot_S256x3072_S3072x128_S256x128_1_0_0_1_n_n_wf : DotDims.WF S256x3072 S3072x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x768.size a < S16384x1024.size a
  hwx0_0 : ∀ i : grid0.Coords, EltTy.bits .f32 = 32 ∨ (Rect.unit (s := S16384x1024) (fun a => cc0_transform_0 i a * S256x768.size a) (fun a => (Pipeline.Clip.of (cc0_transform_0 i a) (S256x768.size a) (S16384x1024.size a)).extent (S256x768.size a)) fun a => Pipeline.Clip.inb (Pipeline.Clip.ok_of (hstart0_0 i a))).WholeWords (EltTy.packing .f32)
  hwxs0_0 : ∀ i : grid0.Coords, EltTy.bits .f32 = 32 ∨ (Rect.unit (s := S256x768) (fun _ => 0) (fun a => (Pipeline.Clip.of (cc0_transform_0 i a) (S256x768.size a) (S16384x1024.size a)).extent (S256x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x3072.size a ≤ S768x3072.size a
  hwx0_1 : ∀ i : grid0.Coords, EltTy.bits .bf16 = 32 ∨ (Rect.block (s := S768x3072) S768x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x768.size a ≤ S3072x768.size a
  hwx0_2 : ∀ i : grid0.Coords, EltTy.bits .bf16 = 32 ∨ (Rect.block (s := S3072x768) S3072x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)

variable [Facts₀]

def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x384_S384x512_S256x512_1_0_0_1_n_n : DotDims S256x384 S384x512 S256x512 where
  lhsContracting := [1]
  rhsContracting := [0]
  lhsNonContracting := [0]
  rhsNonContracting := [1]
  lhsBatch := []
  rhsBatch := []
  wf := dot_S256x384_S384x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x640_S640x512_S256x512_1_0_0_1_n_n : DotDims S256x640 S640x512 S256x512 where
  lhsContracting := [1]
  rhsContracting := [0]
  lhsNonContracting := [0]
  rhsNonContracting := [1]
  lhsBatch := []
  rhsBatch := []
  wf := dot_S256x640_S640x512_S256x512_1_0_0_1_n_n_wf
def dot_S256x768_S768x512_S256x512_1_0_0_1_n_n : DotDims S256x768 S768x512 S256x512 where
  lhsContracting := [1]
  rhsContracting := [0]
  lhsNonContracting := [0]
  rhsNonContracting := [1]
  lhsBatch := []
  rhsBatch := []
  wf := dot_S256x768_S768x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x1536_S1536x128_S256x128_1_0_0_1_n_n : DotDims S256x1536 S1536x128 S256x128 where
  lhsContracting := [1]
  rhsContracting := [0]
  lhsNonContracting := [0]
  rhsNonContracting := [1]
  lhsBatch := []
  rhsBatch := []
  wf := dot_S256x1536_S1536x128_S256x128_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x2560_S2560x128_S256x128_1_0_0_1_n_n : DotDims S256x2560 S2560x128 S256x128 where
  lhsContracting := [1]
  rhsContracting := [0]
  lhsNonContracting := [0]
  rhsNonContracting := [1]
  lhsBatch := []
  rhsBatch := []
  wf := dot_S256x2560_S2560x128_S256x128_1_0_0_1_n_n_wf
def dot_S256x3072_S3072x128_S256x128_1_0_0_1_n_n : DotDims S256x3072 S3072x128 S256x128 where
  lhsContracting := [1]
  rhsContracting := [0]
  lhsNonContracting := [0]
  rhsNonContracting := [1]
  lhsBatch := []
  rhsBatch := []
  wf := dot_S256x3072_S3072x128_S256x128_1_0_0_1_n_n_wf

abbrev win0_0 : Pipeline.Window sig grid0 :=
  Pipeline.Window.ofSpecClip (Memref.whole main_v48) S256x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v45) S768x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S3072x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x1024 : Shape := ⟨2, ![4096, 1024]⟩
abbrev S1024x4096 : Shape := ⟨2, ![1024, 4096]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S_ : Shape := ⟨0, ![]⟩
abbrev S1024x1 : Shape := ⟨2, ![1024, 1]⟩
abbrev S1x4096 : Shape := ⟨2, ![1, 4096]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S4x4096x4096 : Shape := ⟨3, ![4, 4096, 4096]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1024x4096, .f32⟩
  | .hbm, ⟨3, _⟩ => ⟨S4096, .i32⟩
  | .hbm, ⟨4, _⟩ => ⟨S4096x1, .i32⟩
  | .hbm, ⟨5, _⟩ => ⟨S1024, .i32⟩
  | .hbm, ⟨6, _⟩ => ⟨S1x1024, .i32⟩
  | .hbm, ⟨7, _⟩ => ⟨S_, .i32⟩
  | .hbm, ⟨8, _⟩ => ⟨S1x1024, .i32⟩
  | .hbm, ⟨9, _⟩ => ⟨S1x1024, .i32⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x1024, .i32⟩
  | .hbm, ⟨14, _⟩ => ⟨S4096x1024, .i32⟩
  | .hbm, ⟨15, _⟩ => ⟨S4096x1024, .i1⟩
  | .hbm, ⟨16, _⟩ => ⟨S_, .i32⟩
  | .hbm, ⟨17, _⟩ => ⟨S1x1024, .i32⟩
  | .hbm, ⟨18, _⟩ => ⟨S1x1024, .i1⟩
  | .hbm, ⟨19, _⟩ => ⟨S4096x1024, .i1⟩
  | .hbm, ⟨20, _⟩ => ⟨S4096x1024, .i1⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S4096x1024, .i1⟩
  | .hbm, ⟨25, _⟩ => ⟨S4096x1024, .i1⟩
  | .hbm, ⟨26, _⟩ => ⟨S4096x1024, .f32⟩
  | .hbm, ⟨27, _⟩ => ⟨S1024, .i32⟩
  | .hbm, ⟨28, _⟩ => ⟨S1024x1, .i32⟩
  | .hbm, ⟨29, _⟩ => ⟨S4096, .i32⟩
  | .hbm, ⟨30, _⟩ => ⟨S1x4096, .i32⟩
  | .hbm, ⟨31, _⟩ => ⟨S_, .i32⟩
  | .hbm, ⟨32, _⟩ => ⟨S1x4096, .i32⟩
  | .hbm, ⟨33, _⟩ => ⟨S1x4096, .i32⟩
  | .hbm, ⟨34, _⟩ => ⟨S_, .i32⟩
  | .hbm, ⟨35, _⟩ => ⟨S1024x1, .i32⟩
  | .hbm, ⟨36, _⟩ => ⟨S1024x1, .i32⟩
  | .hbm, ⟨37, _⟩ => ⟨S1024x4096, .i32⟩
  | .hbm, ⟨38, _⟩ => ⟨S1024x4096, .i32⟩
  | .hbm, ⟨39, _⟩ => ⟨S1024x4096, .i1⟩
  | .hbm, ⟨40, _⟩ => ⟨S_, .i32⟩
  | .hbm, ⟨41, _⟩ => ⟨S1x4096, .i32⟩
  | .hbm, ⟨42, _⟩ => ⟨S1x4096, .i1⟩
  | .hbm, ⟨43, _⟩ => ⟨S1024x4096, .i1⟩
  | .hbm, ⟨44, _⟩ => ⟨S1024x4096, .i1⟩
  | .hbm, ⟨45, _⟩ => ⟨S_, .i32⟩
  | .hbm, ⟨46, _⟩ => ⟨S1024x1, .i32⟩
  | .hbm, ⟨47, _⟩ => ⟨S1024x1, .i1⟩
  | .hbm, ⟨48, _⟩ => ⟨S1024x4096, .i1⟩
  | .hbm, ⟨49, _⟩ => ⟨S1024x4096, .i1⟩
  | .hbm, ⟨50, _⟩ => ⟨S1024x4096, .f32⟩
  | .hbm, ⟨51, _⟩ => ⟨S4x4096x16x64, .f32⟩
  | .hbm, ⟨52, _⟩ => ⟨S_, .f32⟩
  | .hbm, ⟨53, _⟩ => ⟨S4x4096x16, .f32⟩
  | .hbm, ⟨54, _⟩ => ⟨S4x4096x16x1, .f32⟩
  | .hbm, ⟨55, _⟩ => ⟨S_, .f32⟩
  | .hbm, ⟨56, _⟩ => ⟨S4x4096x16x1, .f32⟩
  | .hbm, ⟨57, _⟩ => ⟨S4x4096x16x1, .f32⟩
  | .hbm, ⟨58, _⟩ => ⟨S4x4096x16x64, .f32⟩
  | .hbm, ⟨59, _⟩ => ⟨S4x4096x16x64, .f32⟩
  | .hbm, ⟨60, _⟩ => ⟨S4x4096x16x64, .f32⟩
  | .hbm, ⟨61, _⟩ => ⟨S_, .f32⟩
  | .hbm, ⟨62, _⟩ => ⟨S4x4096x16, .f32⟩
  | .hbm, ⟨63, _⟩ => ⟨S4x4096x16x1, .f32⟩
  | .hbm, ⟨64, _⟩ => ⟨S_, .f32⟩
  | .hbm, ⟨65, _⟩ => ⟨S4x4096x16x1, .f32⟩
  | .hbm, ⟨66, _⟩ => ⟨S4x4096x16x1, .f32⟩
  | .hbm, ⟨67, _⟩ => ⟨S4x4096x16x64, .f32⟩
  | .hbm, ⟨68, _⟩ => ⟨S4x4096x16x64, .f32⟩
  | .hbm, ⟨69, _⟩ => ⟨S_, .f32⟩
  | .hbm, ⟨70, _⟩ => ⟨S4x4096x16x1, .f32⟩
  | .hbm, ⟨71, _⟩ => ⟨S4x4096x16x1, .f32⟩
  | .hbm, ⟨72, _⟩ => ⟨S4x4096x16x1, .f32⟩
  | .hbm, ⟨73, _⟩ => ⟨S4x4096x16x64, .f32⟩
  | .hbm, ⟨74, _⟩ => ⟨S4x4096x16x64, .f32⟩
  | .hbm, ⟨75, _⟩ => ⟨S4x4096x1024, .f32⟩
  | .hbm, ⟨76, _⟩ => ⟨S4096x1024, .f32⟩
  | .hbm, ⟨77, _⟩ => ⟨S4x4096x4096, .f32⟩
  | .hbm, ⟨78, _⟩ => ⟨S_, .f32⟩
  | .hbm, ⟨79, _⟩ => ⟨S4x4096x4096, .f32⟩
  | .hbm, ⟨80, _⟩ => ⟨S4x4096x4096, .f32⟩
  | .hbm, ⟨81, _⟩ => ⟨S4x4096x4096, .f32⟩
  | .hbm, ⟨82, _⟩ => ⟨S1024x4096, .f32⟩
  | .hbm, ⟨83, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call0_cst : Ref sig .tc := ⟨.hbm, 78, rfl⟩
abbrev main_call0_v0 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S_S4096x1 : S_.BroadcastsInDim S4096x1 (![] : Fin 0 → Fin S4096x1.rank)
  bcast_S1x1024_S4096x1024_0_1 : S1x1024.BroadcastsInDim S4096x1024 (![0, 1] : Fin 2 → Fin S4096x1024.rank)
  bcast_S4096x1_S4096x1024_0_1 : S4096x1.BroadcastsInDim S4096x1024 (![0, 1] : Fin 2 → Fin S4096x1024.rank)
  bcast_S1024_S1024x1_0 : S1024.BroadcastsInDim S1024x1 (![0] : Fin 1 → Fin S1024x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S_S1024x1 : S_.BroadcastsInDim S1024x1 (![] : Fin 0 → Fin S1024x1.rank)
  bcast_S1x4096_S1024x4096_0_1 : S1x4096.BroadcastsInDim S1024x4096 (![0, 1] : Fin 2 → Fin S1024x4096.rank)
  bcast_S1024x1_S1024x4096_0_1 : S1024x1.BroadcastsInDim S1024x4096 (![0, 1] : Fin 2 → Fin S1024x4096.rank)
  shapeCasts_S4x4096x1024_S4x4096x16x64 : S4x4096x1024.ShapeCasts S4x4096x16x64
  reducesTo_S4x4096x16x64_S4x4096x16_d3 : S4x4096x16x64.ReducesTo [3] S4x4096x16
  h_S_ : 0 < S_.numel
  bcast_S4x4096x16_S4x4096x16x1_0_1_2 : S4x4096x16.BroadcastsInDim S4x4096x16x1 (![0, 1, 2] : Fin 3 → Fin S4x4096x16x1.rank)
  bcast_S_S4x4096x16x1 : S_.BroadcastsInDim S4x4096x16x1 (![] : Fin 0 → Fin S4x4096x16x1.rank)
  bcast_S4x4096x16x1_S4x4096x16x64_0_1_2_3 : S4x4096x16x1.BroadcastsInDim S4x4096x16x64 (![0, 1, 2, 3] : Fin 4 → Fin S4x4096x16x64.rank)
  shapeCasts_S4x4096x16x64_S4x4096x1024 : S4x4096x16x64.ShapeCasts S4x4096x1024
  bcast_S_S4x4096x4096 : S_.BroadcastsInDim S4x4096x4096 (![] : Fin 0 → Fin S4x4096x4096.rank)
  dot_S4x4096x1024_S4096x1024_S4x4096x4096_2_1_01_0_n_n_wf : DotDims.WF S4x4096x1024 S4096x1024 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x1024_S4096x1024_S4x4096x4096_2_1_01_0_n_n : DotDims S4x4096x1024 S4096x1024 S4x4096x4096 where
  lhsContracting := [2]
  rhsContracting := [1]
  lhsNonContracting := [0, 1]
  rhsNonContracting := [0]
  lhsBatch := []
  rhsBatch := []
  wf := dot_S4x4096x1024_S4096x1024_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.KTermK.lean ====
/-
  The kernel body's arithmetic gathered into three terms: the normalized and narrowed block computed from the
  loaded input block; the first 768 columns of the stored block computed from it and from the twelve loaded weight
  panels; and a rectangular panel of a matrix read at an offset.
-/
import proofs.«121291_j13245679140988_2_alg».proof.Proof.Gen.Kernel.Skeleton
import Idealize.ShloMosaic.Lib.ValueIdx

noncomputable section

namespace Cert.TriMlp.K

open Idealize.ShloMosaic Idealize.ShloMosaic.ValueIdx Cert.Kernel Cert.Kernel.Gen

variable {F : FTy → Type} [FloatOps F]

/-- The constant added to each variance, as a scalar of the body. -/
def epsS : F .f32 := Scalar.ofBits .f32 0x3727C5AC#32

/-- The body's normalized block, narrowed, as a function of the loaded 256 x 768 input block: twelve groups of 64
    columns normalized one by one and laid side by side. -/
def kHn (x : Vec F S256x768 .f32) : FVec F S256x768 .bf16 :=
  k0_pay24 (k0_pay2 x) (k0_pay3 x) (k0_pay4 x) (k0_pay7 (k0_pay5 x) (k0_pay6 x)) (k0_pay8 (k0_pay2 x))
    (k0_pay13 (k0_pay11 (k0_pay2 x)) (k0_pay12 (k0_pay2 x)) epsS) (k0_pay14 (k0_pay2 x)) (k0_pay15 (k0_pay2 x))
    (k0_pay18 (k0_pay16 (k0_pay2 x)) (k0_pay17 (k0_pay2 x))) (k0_pay19 (k0_pay2 x)) (k0_pay22 (k0_pay2 x))
    (k0_pay23 (k0_pay2 x)) epsS

/-- The first 768 columns of the stored block from the normalized block `v231` and the twelve loaded weight panels:
    six products with panels of the first weight matrix, each clamped below at zero and squared, laid side by
    side; then six products of leading parts of that with panels of the second weight matrix, laid side by side. -/
def kOutOf (v231 : FVec F S256x768 .bf16) (l233 : Vec F S128x512 .bf16) (l241 : Vec F S256x512 .bf16)
    (l249 : Vec F S384x512 .bf16) (l257 : Vec F S512x512 .bf16) (l265 : Vec F S640x512 .bf16) (l272 : Vec F S768x512 .bf16)
    (l281 : Vec F S512x128 .bf16) (l285 : Vec F S1024x128 .bf16) (l289 : Vec F S1536x128 .bf16)
    (l293 : Vec F S2048x128 .bf16) (l297 : Vec F S2560x128 .bf16) (l300 : Vec F S3072x128 .bf16) : FVec F S256x768 .f32 :=
  k0_pay33 v231
    (k0_pay27 (extractStridedSlice S256x128 ![0, 0] v231 slices_S256x768_o0_0_S256x128) (k0_pay26 l233))
    (k0_pay28 v231 l241) (k0_pay29 v231 l249) (k0_pay30 v231 l257) (k0_pay31 v231 l265) (k0_pay32 l272)
    (constant S256x512 .f32 0x00000000#32) l281 l285 l289 l293 l297 l300

/-- The same from the loaded input block. -/
def kOut (x : Vec F S256x768 .f32) (l233 : Vec F S128x512 .bf16) (l241 : Vec F S256x512 .bf16)
    (l249 : Vec F S384x512 .bf16) (l257 : Vec F S512x512 .bf16) (l265 : Vec F S640x512 .bf16) (l272 : Vec F S768x512 .bf16)
    (l281 : Vec F S512x128 .bf16) (l285 : Vec F S1024x128 .bf16) (l289 : Vec F S1536x128 .bf16)
    (l293 : Vec F S2048x128 .bf16) (l297 : Vec F S2560x128 .bf16) (l300 : Vec F S3072x128 .bf16) : FVec F S256x768 .f32 :=
  kOutOf (kHn x) l233 l241 l249 l257 l265 l272 l281 l285 l289 l293 l297 l300

/-- The `a` x `b` panel of an `A` x `B` matrix whose corner is at row `oa`, column `ob`. -/
def subBlk {α : Type} {A B a b : ℕ} (oa ob : ℕ) (ha : oa + a ≤ A) (hb : ob + b ≤ B)
    (w : (⟨2, ![A, B]⟩ : Shape).Idx → α) : (⟨2, ![a, b]⟩ : Shape).Idx → α :=
  fun j => w (ix2 ⟨oa + (j 0).val, by have := idx2_lt0 j; omega⟩ ⟨ob + (j 1).val, by have := idx2_lt1 j; omega⟩)

theorem subBlk_ix2 {α : Type} {A B a b : ℕ} (oa ob : ℕ) (ha : oa + a ≤ A) (hb : ob + b ≤ B)
    (w : (⟨2, ![A, B]⟩ : Shape).Idx → α) (p : Fin a) (q : Fin b) :
    subBlk oa ob ha hb w (ix2 p q) = w (ix2 ⟨oa + p.val, by omega⟩ ⟨ob + q.val, by omega⟩) := rfl

end Cert.TriMlp.K

end
-- ==== Proof.KBody.lean ====
/-
  The frame of the program: its run to the end, with every argument array left as launched.

  The region's body is one straight line: it loads its whole input block, twelve panels of the two weight arrays,
  computes, and stores twice into the output block, columns 0 to 767 and columns 768 to 1023, which together tile
  it.  So what the body leaves in the output buffer is a closed function of what it finds in the three input buffers.
  The first input's blocks are 256 x 768 in an array 1024 columns wide, so they do not tile it, but every block lies
  inside the array: no transfer is cut, and the buffer holds rows 256 t to 256 t + 255, columns 0 to 767 of the array
  at point t.  The weight arrays are staged whole, once.
-/
import proofs.«121291_j13245679140988_2_alg».proof.Proof.Gen.Kernel.Frame
import proofs.«121291_j13245679140988_2_alg».proof.Proof.Gen.Kernel.Skeleton
import proofs.«121291_j13245679140988_2_alg».proof.Proof.KTermK
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.TriMlp.KBody

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole input block. -/
abbrev rX : Rect S256x768 := Rect.unit (s := S256x768) ![0, 0] S256x768.size inb_S256x768_S256x768_0_0
/-- The six panels of the first weight array: column offsets 0, 512, ..., 2560 and 128, 256, ..., 768 rows. -/
abbrev rA0 : Rect S768x3072 := Rect.unit (s := S768x3072) ![0, 0] S128x512.size inb_S768x3072_S128x512_0_0
abbrev rA1 : Rect S768x3072 := Rect.unit (s := S768x3072) ![0, 512] S256x512.size inb_S768x3072_S256x512_0_512
abbrev rA2 : Rect S768x3072 := Rect.unit (s := S768x3072) ![0, 1024] S384x512.size inb_S768x3072_S384x512_0_1024
abbrev rA3 : Rect S768x3072 := Rect.unit (s := S768x3072) ![0, 1536] S512x512.size inb_S768x3072_S512x512_0_1536
abbrev rA4 : Rect S768x3072 := Rect.unit (s := S768x3072) ![0, 2048] S640x512.size inb_S768x3072_S640x512_0_2048
abbrev rA5 : Rect S768x3072 := Rect.unit (s := S768x3072) ![0, 2560] S768x512.size inb_S768x3072_S768x512_0_2560
/-- The six panels of the second weight array: column offsets 0, 128, ..., 640 and 512, 1024, ..., 3072 rows. -/
abbrev rB0 : Rect S3072x768 := Rect.unit (s := S3072x768) ![0, 0] S512x128.size inb_S3072x768_S512x128_0_0
abbrev rB1 : Rect S3072x768 := Rect.unit (s := S3072x768) ![0, 128] S1024x128.size inb_S3072x768_S1024x128_0_128
abbrev rB2 : Rect S3072x768 := Rect.unit (s := S3072x768) ![0, 256] S1536x128.size inb_S3072x768_S1536x128_0_256
abbrev rB3 : Rect S3072x768 := Rect.unit (s := S3072x768) ![0, 384] S2048x128.size inb_S3072x768_S2048x128_0_384
abbrev rB4 : Rect S3072x768 := Rect.unit (s := S3072x768) ![0, 512] S2560x128.size inb_S3072x768_S2560x128_0_512
abbrev rB5 : Rect S3072x768 := Rect.unit (s := S3072x768) ![0, 640] S3072x128.size inb_S3072x768_S3072x128_0_640
/-- The two stored parts of the output block: columns 0 to 767 and columns 768 to 1023. -/
abbrev rO1 : Rect S256x1024 := Rect.unit (s := S256x1024) ![0, 0] S256x768.size inb_S256x1024_S256x768_0_0
abbrev rO2 : Rect S256x1024 := Rect.unit (s := S256x1024) ![0, 768] S256x256.size inb_S256x1024_S256x256_0_768

/-! ## What the body leaves in the output buffer -/

/-- The output buffer after the body, from the contents of the three input buffers: the zero block over columns
    768 to 1023 (stored last) and the computed block over columns 0 to 767. -/
def outB (x0 : Vec F S256x768 .f32) (x1 : Vec F S768x3072 .bf16) (x2 : Vec F S3072x768 .bf16) : Vec F S256x1024 .f32 :=
  View.canon [⟨rO2, k0_pay1 (Scalar.ofBits .f32 0x00000000#32)⟩,
    ⟨rO1, K.kOut (View.ld x0 rX) (View.ld x1 rA0) (View.ld x1 rA1) (View.ld x1 rA2) (View.ld x1 rA3) (View.ld x1 rA4)
      (View.ld x1 rA5) (View.ld x2 rB0) (View.ld x2 rB1) (View.ld x2 rB2) (View.ld x2 rB3) (View.ld x2 rB4) (View.ld x2 rB5)⟩]

/-- The two stores tile the buffer, so they cover it. -/
theorem cover (p0 : Vec F S256x256 .f32) (p1 : Vec F S256x768 .f32) (y : S256x1024.Idx) :
    ∃ pc ∈ ([⟨rO2, p0⟩, ⟨rO1, p1⟩] : List (View.Piece (Elt F) S256x1024 .f32)), y ∈ pc.1.set :=
  View.cover_of_tiledBy [⟨rO2, p0⟩, ⟨rO1, p1⟩] ![256, 256] (by sl_kernel_rfl) y

/-! ## The body's triple -/

set_option maxHeartbeats 4000000 in
/-- The body on whole buffers, the inputs' at read contents `x0`, `x1`, `x2` and the output's at anything, runs to
    the continuation holding the inputs' as they were and the output's at `outB` of them. -/
theorem sound_kernel (c : Dev nD) (E : Set ℕ) (i : grid0.Coords)
    (arg1 : Memref sig .tc .vmem S256x768 .f32) (harg1 : arg1.IsWhole) (arg2 : Memref sig .tc .vmem S768x3072 .bf16) (harg2 : arg2.IsWhole)
    (arg3 : Memref sig .tc .vmem S3072x768 .bf16) (harg3 : arg3.IsWhole) (arg4 : Memref sig .tc .vmem S256x1024 .f32) (harg4 : arg4.IsWhole)
    (x0 : Vec F S256x768 .f32) (x1 : Vec F S768x3072 .bf16) (x2 : Vec F S3072x768 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outB x0 x1 x2)) -∗ K ⟨⟩))
      ⊢ wp frame (wpE (defs₀ (F := F)) Variants.none c none) E (cc0__mlp_kernel i arg1 harg1 arg2 harg2 arg3 harg3 arg4 harg4) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _ _)

/-! ## The first input's block at a point -/

/-- No block of the first input overhangs its array: on each axis, at every point, the transfer is uncut. -/
theorem clip0 : ∀ (t : Fin cfg0.N) (a : Fin 2), (cfg0.win 0).clip (cfg0.grid.coords t) a = none :=
  (by decide +kernel : ∀ (t : Fin grid0.N) (a : Fin 2), win0_0.clip (grid0.coords t) a = none)

/-- Its block index at point `t` is `(t, 0)`. -/
theorem index0 : ∀ t : Fin cfg0.N, (cfg0.win 0).index t 0 = t.val ∧ (cfg0.win 0).index t 1 = 0 :=
  (by decide +kernel : ∀ t : Fin grid0.N, win0_0.index t 0 = t.val ∧ win0_0.index t 1 = 0)

/-- Rows `256 t` to `256 t + 255`, columns 0 to 767 of the reshaped input as the region finds it. -/
def xfull (c : Dev nD) (t : Fin cfg0.N) : S256x768.Idx → Elt F .f32 := fun j =>
  (V m c main_v48 : S16384x1024.Idx → Elt F .f32)
    (ix2 ⟨256 * t.val + (j 0).val, by have := idx2_lt0 j; have := lt_of_lt_of_eq t.isLt N_0; omega⟩
      ⟨(j 1).val, by have := idx2_lt1 j; omega⟩)

/-! ## The pipeline's proof data -/

/-- The proof data of the one pipeline on core `c`: the arrays as the region finds them; after the body at point `t`
    each input's buffer at its block and the output's at `outB` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => outB (xfull m c t) (iblk m c 1 t) (iblk m c 2 t)
  Φ _ := Pipeline.ΦA spec0 c
  q _ := fullShare
  owed _ := 0

/-- The proof data's arrays are the region-entry contents. -/
theorem dats_A (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outB (xfull m c t) (iblk m c 1 t) (iblk m c 2 t) := by dsimp only [dats]

/-- The first input is fetched at every point, uncut: its buffer holds the block, whatever it held before. A block's
    coordinate in the array is the block index times the block size plus the coordinate inside the block. -/
theorem before0_0 (c : Dev nD) (t : Fin cfg0.N) (d) : (dats m 0 c).before 0 t d = xfull m c t := by
  unfold Dat.before
  rw [if_pos (fetch0_0 t)]
  funext j
  have hm : (cfg0.win 0).moved (cfg0.grid.coords t) j = true :=
    ((cfg0.win 0).moved_iff _ j).mpr fun a => by have := (j a).isLt; unfold Window.xsize; rw [clip0 t a]; exact this
  unfold Dat.fetched Window.fill
  rw [dif_pos hm]
  unfold Dat.blockOf
  rw [dats_A]
  show (V m c main_v48 : S16384x1024.Idx → Elt F .f32) (((cfg0.win 0).rect t).emb _) = _
  unfold xfull
  refine congrArg (V m c main_v48 : S16384x1024.Idx → Elt F .f32) (funext fun a => Fin.ext ?_)
  match a with
  | ⟨0, _⟩ =>
    show (cfg0.win 0).index t 0 * 256 + 1 * (j 0).val = 256 * t.val + (j 0).val
    rw [(index0 t).1]; omega
  | ⟨1, _⟩ =>
    show (cfg0.win 0).index t 1 * 768 + 1 * (j 1).val = (j 1).val
    rw [(index0 t).2]; omega

/-- The weight arrays are staged whole and never refetched: their buffers hold them at every point. -/
theorem before0_1 (c : Dev nD) (t : Fin cfg0.N) (d) : (dats m 0 c).before 1 t d = iblk m c 1 t :=
  before0_1_of m (dats m 0 c) (dats_A m c 1) (after0_1 m c) t d
theorem before0_2 (c : Dev nD) (t : Fin cfg0.N) (d) : (dats m 0 c).before 2 t d = iblk m c 2 t :=
  before0_2_of m (dats m 0 c) (dats_A m c 2) (after0_2 m c) t d

/-- The output is never fetched and is written back at every point: its buffer holds nothing the body may rely on. -/
theorem fetch0_3 : ∀ t : Fin cfg0.N, (cfg0.win 3).fetch t = false :=
  (by decide +kernel : ∀ t : Fin grid0.N, win0_3.fetch t = false)
theorem before0_3 (c : Dev nD) (t : Fin cfg0.N) (d) : (dats m 0 c).before 3 t d = d := by
  unfold Dat.before
  rw [if_neg (by rw [fetch0_3 t]; exact Bool.false_ne_true)]
  by_cases h0 : t.val = 0
  · rw [if_pos h0]
  · rw [if_neg h0]; exact if_pos (flush0_3 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (xfull m c t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has every array of the pipeline at what the library
    computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The frame: the program runs to the end and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (dats_A m) (run_main m ρ)

end Cert.TriMlp.KBody

end
-- ==== Proof.KTerm.lean ====
/-
  The kernel body's arithmetic gathered into three terms: the normalized and narrowed block computed from the
  loaded input block; the first 768 columns of the stored block computed from it and from the twelve loaded weight
  panels; and a rectangular panel of a matrix read at an offset.
-/
import proofs.«121291_j13245679140988_2_alg».proof.Proof.Gen.KernelIdeal.Skeleton
import Idealize.ShloMosaic.Lib.ValueIdx

noncomputable section

namespace Cert.TriMlp.KI

open Idealize.ShloMosaic Idealize.ShloMosaic.ValueIdx Cert.KernelIdeal Cert.KernelIdeal.Gen

variable {F : FTy → Type} [FloatOps F]

/-- The constant added to each variance, as a scalar of the body. -/
def epsS : F .f32 := Scalar.ofBits .f32 0x3727C5AC#32

/-- The body's normalized block, narrowed, as a function of the loaded 256 x 768 input block: twelve groups of 64
    columns normalized one by one and laid side by side. -/
def kHn (x : Vec F S256x768 .f32) : FVec F S256x768 .bf16 :=
  k0_pay24 (k0_pay2 x) (k0_pay3 x) (k0_pay4 x) (k0_pay7 (k0_pay5 x) (k0_pay6 x)) (k0_pay8 (k0_pay2 x))
    (k0_pay13 (k0_pay11 (k0_pay2 x)) (k0_pay12 (k0_pay2 x)) epsS) (k0_pay14 (k0_pay2 x)) (k0_pay15 (k0_pay2 x))
    (k0_pay18 (k0_pay16 (k0_pay2 x)) (k0_pay17 (k0_pay2 x))) (k0_pay19 (k0_pay2 x)) (k0_pay22 (k0_pay2 x))
    (k0_pay23 (k0_pay2 x)) epsS

/-- The first 768 columns of the stored block from the normalized block `v231` and the twelve loaded weight panels:
    six products with panels of the first weight matrix, each clamped below at zero and squared, laid side by
    side; then six products of leading parts of that with panels of the second weight matrix, laid side by side. -/
def kOutOf (v231 : FVec F S256x768 .bf16) (l233 : Vec F S128x512 .bf16) (l241 : Vec F S256x512 .bf16)
    (l249 : Vec F S384x512 .bf16) (l257 : Vec F S512x512 .bf16) (l265 : Vec F S640x512 .bf16) (l272 : Vec F S768x512 .bf16)
    (l281 : Vec F S512x128 .bf16) (l285 : Vec F S1024x128 .bf16) (l289 : Vec F S1536x128 .bf16)
    (l293 : Vec F S2048x128 .bf16) (l297 : Vec F S2560x128 .bf16) (l300 : Vec F S3072x128 .bf16) : FVec F S256x768 .f32 :=
  k0_pay33 v231
    (k0_pay27 (extractStridedSlice S256x128 ![0, 0] v231 slices_S256x768_o0_0_S256x128) (k0_pay26 l233))
    (k0_pay28 v231 l241) (k0_pay29 v231 l249) (k0_pay30 v231 l257) (k0_pay31 v231 l265) (k0_pay32 l272)
    (constant S256x512 .f32 0x00000000#32) l281 l285 l289 l293 l297 l300

/-- The same from the loaded input block. -/
def kOut (x : Vec F S256x768 .f32) (l233 : Vec F S128x512 .bf16) (l241 : Vec F S256x512 .bf16)
    (l249 : Vec F S384x512 .bf16) (l257 : Vec F S512x512 .bf16) (l265 : Vec F S640x512 .bf16) (l272 : Vec F S768x512 .bf16)
    (l281 : Vec F S512x128 .bf16) (l285 : Vec F S1024x128 .bf16) (l289 : Vec F S1536x128 .bf16)
    (l293 : Vec F S2048x128 .bf16) (l297 : Vec F S2560x128 .bf16) (l300 : Vec F S3072x128 .bf16) : FVec F S256x768 .f32 :=
  kOutOf (kHn x) l233 l241 l249 l257 l265 l272 l281 l285 l289 l293 l297 l300

/-- The `a` x `b` panel of an `A` x `B` matrix whose corner is at row `oa`, column `ob`. -/
def subBlk {α : Type} {A B a b : ℕ} (oa ob : ℕ) (ha : oa + a ≤ A) (hb : ob + b ≤ B)
    (w : (⟨2, ![A, B]⟩ : Shape).Idx → α) : (⟨2, ![a, b]⟩ : Shape).Idx → α :=
  fun j => w (ix2 ⟨oa + (j 0).val, by have := idx2_lt0 j; omega⟩ ⟨ob + (j 1).val, by have := idx2_lt1 j; omega⟩)

theorem subBlk_ix2 {α : Type} {A B a b : ℕ} (oa ob : ℕ) (ha : oa + a ≤ A) (hb : ob + b ≤ B)
    (w : (⟨2, ![A, B]⟩ : Shape).Idx → α) (p : Fin a) (q : Fin b) :
    subBlk oa ob ha hb w (ix2 p q) = w (ix2 ⟨oa + p.val, by omega⟩ ⟨ob + q.val, by omega⟩) := rfl

end Cert.TriMlp.KI

end
-- ==== Proof.KIBody.lean ====
/-
  The frame of the program: its run to the end, with every argument array left as launched.

  The region's body is one straight line: it loads its whole input block, twelve panels of the two weight arrays,
  computes, and stores twice into the output block, columns 0 to 767 and columns 768 to 1023, which together tile
  it.  So what the body leaves in the output buffer is a closed function of what it finds in the three input buffers.
  The first input's blocks are 256 x 768 in an array 1024 columns wide, so they do not tile it, but every block lies
  inside the array: no transfer is cut, and the buffer holds rows 256 t to 256 t + 255, columns 0 to 767 of the array
  at point t.  The weight arrays are staged whole, once.
-/
import proofs.«121291_j13245679140988_2_alg».proof.Proof.Gen.KernelIdeal.Frame
import proofs.«121291_j13245679140988_2_alg».proof.Proof.Gen.KernelIdeal.Skeleton
import proofs.«121291_j13245679140988_2_alg».proof.Proof.KTerm
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.TriMlp.KIBody

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole input block. -/
abbrev rX : Rect S256x768 := Rect.unit (s := S256x768) ![0, 0] S256x768.size inb_S256x768_S256x768_0_0
/-- The six panels of the first weight array: column offsets 0, 512, ..., 2560 and 128, 256, ..., 768 rows. -/
abbrev rA0 : Rect S768x3072 := Rect.unit (s := S768x3072) ![0, 0] S128x512.size inb_S768x3072_S128x512_0_0
abbrev rA1 : Rect S768x3072 := Rect.unit (s := S768x3072) ![0, 512] S256x512.size inb_S768x3072_S256x512_0_512
abbrev rA2 : Rect S768x3072 := Rect.unit (s := S768x3072) ![0, 1024] S384x512.size inb_S768x3072_S384x512_0_1024
abbrev rA3 : Rect S768x3072 := Rect.unit (s := S768x3072) ![0, 1536] S512x512.size inb_S768x3072_S512x512_0_1536
abbrev rA4 : Rect S768x3072 := Rect.unit (s := S768x3072) ![0, 2048] S640x512.size inb_S768x3072_S640x512_0_2048
abbrev rA5 : Rect S768x3072 := Rect.unit (s := S768x3072) ![0, 2560] S768x512.size inb_S768x3072_S768x512_0_2560
/-- The six panels of the second weight array: column offsets 0, 128, ..., 640 and 512, 1024, ..., 3072 rows. -/
abbrev rB0 : Rect S3072x768 := Rect.unit (s := S3072x768) ![0, 0] S512x128.size inb_S3072x768_S512x128_0_0
abbrev rB1 : Rect S3072x768 := Rect.unit (s := S3072x768) ![0, 128] S1024x128.size inb_S3072x768_S1024x128_0_128
abbrev rB2 : Rect S3072x768 := Rect.unit (s := S3072x768) ![0, 256] S1536x128.size inb_S3072x768_S1536x128_0_256
abbrev rB3 : Rect S3072x768 := Rect.unit (s := S3072x768) ![0, 384] S2048x128.size inb_S3072x768_S2048x128_0_384
abbrev rB4 : Rect S3072x768 := Rect.unit (s := S3072x768) ![0, 512] S2560x128.size inb_S3072x768_S2560x128_0_512
abbrev rB5 : Rect S3072x768 := Rect.unit (s := S3072x768) ![0, 640] S3072x128.size inb_S3072x768_S3072x128_0_640
/-- The two stored parts of the output block: columns 0 to 767 and columns 768 to 1023. -/
abbrev rO1 : Rect S256x1024 := Rect.unit (s := S256x1024) ![0, 0] S256x768.size inb_S256x1024_S256x768_0_0
abbrev rO2 : Rect S256x1024 := Rect.unit (s := S256x1024) ![0, 768] S256x256.size inb_S256x1024_S256x256_0_768

/-! ## What the body leaves in the output buffer -/

/-- The output buffer after the body, from the contents of the three input buffers: the zero block over columns
    768 to 1023 (stored last) and the computed block over columns 0 to 767. -/
def outB (x0 : Vec F S256x768 .f32) (x1 : Vec F S768x3072 .bf16) (x2 : Vec F S3072x768 .bf16) : Vec F S256x1024 .f32 :=
  View.canon [⟨rO2, k0_pay1 (Scalar.ofBits .f32 0x00000000#32)⟩,
    ⟨rO1, KI.kOut (View.ld x0 rX) (View.ld x1 rA0) (View.ld x1 rA1) (View.ld x1 rA2) (View.ld x1 rA3) (View.ld x1 rA4)
      (View.ld x1 rA5) (View.ld x2 rB0) (View.ld x2 rB1) (View.ld x2 rB2) (View.ld x2 rB3) (View.ld x2 rB4) (View.ld x2 rB5)⟩]

/-- The two stores tile the buffer, so they cover it. -/
theorem cover (p0 : Vec F S256x256 .f32) (p1 : Vec F S256x768 .f32) (y : S256x1024.Idx) :
    ∃ pc ∈ ([⟨rO2, p0⟩, ⟨rO1, p1⟩] : List (View.Piece (Elt F) S256x1024 .f32)), y ∈ pc.1.set :=
  View.cover_of_tiledBy [⟨rO2, p0⟩, ⟨rO1, p1⟩] ![256, 256] (by sl_kernel_rfl) y

/-! ## The body's triple -/

set_option maxHeartbeats 4000000 in
/-- The body on whole buffers, the inputs' at read contents `x0`, `x1`, `x2` and the output's at anything, runs to
    the continuation holding the inputs' as they were and the output's at `outB` of them. -/
theorem sound_kernel (c : Dev nD) (E : Set ℕ) (i : grid0.Coords)
    (arg1 : Memref sig .tc .vmem S256x768 .f32) (harg1 : arg1.IsWhole) (arg2 : Memref sig .tc .vmem S768x3072 .bf16) (harg2 : arg2.IsWhole)
    (arg3 : Memref sig .tc .vmem S3072x768 .bf16) (harg3 : arg3.IsWhole) (arg4 : Memref sig .tc .vmem S256x1024 .f32) (harg4 : arg4.IsWhole)
    (x0 : Vec F S256x768 .f32) (x1 : Vec F S768x3072 .bf16) (x2 : Vec F S3072x768 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outB x0 x1 x2)) -∗ K ⟨⟩))
      ⊢ wp frame (wpE (defs₀ (F := F)) Variants.none c none) E (cc0__mlp_kernel i arg1 harg1 arg2 harg2 arg3 harg3 arg4 harg4) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _ _)

/-! ## The first input's block at a point -/

/-- No block of the first input overhangs its array: on each axis, at every point, the transfer is uncut. -/
theorem clip0 : ∀ (t : Fin cfg0.N) (a : Fin 2), (cfg0.win 0).clip (cfg0.grid.coords t) a = none :=
  (by decide +kernel : ∀ (t : Fin grid0.N) (a : Fin 2), win0_0.clip (grid0.coords t) a = none)

/-- Its block index at point `t` is `(t, 0)`. -/
theorem index0 : ∀ t : Fin cfg0.N, (cfg0.win 0).index t 0 = t.val ∧ (cfg0.win 0).index t 1 = 0 :=
  (by decide +kernel : ∀ t : Fin grid0.N, win0_0.index t 0 = t.val ∧ win0_0.index t 1 = 0)

/-- Rows `256 t` to `256 t + 255`, columns 0 to 767 of the reshaped input as the region finds it. -/
def xfull (c : Dev nD) (t : Fin cfg0.N) : S256x768.Idx → Elt F .f32 := fun j =>
  (V m c main_v48 : S16384x1024.Idx → Elt F .f32)
    (ix2 ⟨256 * t.val + (j 0).val, by have := idx2_lt0 j; have := lt_of_lt_of_eq t.isLt N_0; omega⟩
      ⟨(j 1).val, by have := idx2_lt1 j; omega⟩)

/-! ## The pipeline's proof data -/

/-- The proof data of the one pipeline on core `c`: the arrays as the region finds them; after the body at point `t`
    each input's buffer at its block and the output's at `outB` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => outB (xfull m c t) (iblk m c 1 t) (iblk m c 2 t)
  Φ _ := Pipeline.ΦA spec0 c
  q _ := fullShare
  owed _ := 0

/-- The proof data's arrays are the region-entry contents. -/
theorem dats_A (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outB (xfull m c t) (iblk m c 1 t) (iblk m c 2 t) := by dsimp only [dats]

/-- The first input is fetched at every point, uncut: its buffer holds the block, whatever it held before. A block's
    coordinate in the array is the block index times the block size plus the coordinate inside the block. -/
theorem before0_0 (c : Dev nD) (t : Fin cfg0.N) (d) : (dats m 0 c).before 0 t d = xfull m c t := by
  unfold Dat.before
  rw [if_pos (fetch0_0 t)]
  funext j
  have hm : (cfg0.win 0).moved (cfg0.grid.coords t) j = true :=
    ((cfg0.win 0).moved_iff _ j).mpr fun a => by have := (j a).isLt; unfold Window.xsize; rw [clip0 t a]; exact this
  unfold Dat.fetched Window.fill
  rw [dif_pos hm]
  unfold Dat.blockOf
  rw [dats_A]
  show (V m c main_v48 : S16384x1024.Idx → Elt F .f32) (((cfg0.win 0).rect t).emb _) = _
  unfold xfull
  refine congrArg (V m c main_v48 : S16384x1024.Idx → Elt F .f32) (funext fun a => Fin.ext ?_)
  match a with
  | ⟨0, _⟩ =>
    show (cfg0.win 0).index t 0 * 256 + 1 * (j 0).val = 256 * t.val + (j 0).val
    rw [(index0 t).1]; omega
  | ⟨1, _⟩ =>
    show (cfg0.win 0).index t 1 * 768 + 1 * (j 1).val = (j 1).val
    rw [(index0 t).2]; omega

/-- The weight arrays are staged whole and never refetched: their buffers hold them at every point. -/
theorem before0_1 (c : Dev nD) (t : Fin cfg0.N) (d) : (dats m 0 c).before 1 t d = iblk m c 1 t :=
  before0_1_of m (dats m 0 c) (dats_A m c 1) (after0_1 m c) t d
theorem before0_2 (c : Dev nD) (t : Fin cfg0.N) (d) : (dats m 0 c).before 2 t d = iblk m c 2 t :=
  before0_2_of m (dats m 0 c) (dats_A m c 2) (after0_2 m c) t d

/-- The output is never fetched and is written back at every point: its buffer holds nothing the body may rely on. -/
theorem fetch0_3 : ∀ t : Fin cfg0.N, (cfg0.win 3).fetch t = false :=
  (by decide +kernel : ∀ t : Fin grid0.N, win0_3.fetch t = false)
theorem before0_3 (c : Dev nD) (t : Fin cfg0.N) (d) : (dats m 0 c).before 3 t d = d := by
  unfold Dat.before
  rw [if_neg (by rw [fetch0_3 t]; exact Bool.false_ne_true)]
  by_cases h0 : t.val = 0
  · rw [if_pos h0]
  · rw [if_neg h0]; exact if_pos (flush0_3 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (xfull m c t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has every array of the pipeline at what the library
    computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The frame: the program runs to the end and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (dats_A m) (run_main m ρ)

end Cert.TriMlp.KIBody

end
-- ==== Proof.KIAfter.lean ====
/-
  The stored block read at an index, at the ideal values.

  After the body at a point the output buffer holds, at row r and column e, the computed block's entry for e below
  768 and zero from column 768 on: the two stores tile the buffer, the second one's payload is the zero splat, and
  each load of a weight panel reads the panel of the staged array at the load's corner.
-/
import proofs.«121291_j13245679140988_2_alg».proof.Proof.KIBody
import Idealize.ShloMosaic.Lib.Pipeline.Value
import Idealize.ShloMosaic.PureOps.Ideal.Laws

set_option maxRecDepth 16384

noncomputable section

namespace Cert.TriMlp.KIAfter

open Idealize.ShloMosaic Idealize.ShloMosaic.TcCoe Idealize.ShloMosaic.ValueIdx
open Cert.KernelIdeal Cert.KernelIdeal.Gen Cert.TriMlp.KIBody

variable {F : FTy → Type} [FloatOps F]

/-- A load of a matrix through the unit-stride rectangle with corner `(oa, ob)` and sizes `a` x `b` reads the
    panel at that corner: a rectangle's coordinate is its offset plus the coordinate inside it. -/
theorem ld_panel {Val : EltTy → Type} {e : EltTy} {A B a b oa ob : ℕ} (w : (⟨2, ![A, B]⟩ : Shape).Idx → Val e)
    (inb : ∀ i, (![oa, ob] : Fin 2 → ℕ) i + (⟨2, ![a, b]⟩ : Shape).size i ≤ (⟨2, ![A, B]⟩ : Shape).size i)
    (ha : oa + a ≤ A) (hb : ob + b ≤ B) :
    View.ld w (Rect.unit (s := ⟨2, ![A, B]⟩) ![oa, ob] (⟨2, ![a, b]⟩ : Shape).size inb) = KI.subBlk oa ob ha hb w := by
  funext j
  show w _ = w _
  refine congrArg w (funext fun i => Fin.ext ?_)
  match i with
  | ⟨0, _⟩ => show oa + 1 * (j 0).val = oa + (j 0).val; omega
  | ⟨1, _⟩ => show ob + 1 * (j 1).val = ob + (j 1).val; omega

/-- The output buffer after the body with every load read as a panel. -/
theorem outB_panels (x0 : Vec F S256x768 .f32) (x1 : Vec F S768x3072 .bf16) (x2 : Vec F S3072x768 .bf16) :
    outB x0 x1 x2 = View.canon [⟨rO2, k0_pay1 (Scalar.ofBits .f32 0x00000000#32)⟩,
      ⟨rO1, KI.kOut x0
        (KI.subBlk 0 0 (by norm_num) (by norm_num) x1) (KI.subBlk 0 512 (by norm_num) (by norm_num) x1)
        (KI.subBlk 0 1024 (by norm_num) (by norm_num) x1) (KI.subBlk 0 1536 (by norm_num) (by norm_num) x1)
        (KI.subBlk 0 2048 (by norm_num) (by norm_num) x1) (KI.subBlk 0 2560 (by norm_num) (by norm_num) x1)
        (KI.subBlk 0 0 (by norm_num) (by norm_num) x2) (KI.subBlk 0 128 (by norm_num) (by norm_num) x2)
        (KI.subBlk 0 256 (by norm_num) (by norm_num) x2) (KI.subBlk 0 384 (by norm_num) (by norm_num) x2)
        (KI.subBlk 0 512 (by norm_num) (by norm_num) x2) (KI.subBlk 0 640 (by norm_num) (by norm_num) x2)⟩] := by
  unfold outB
  rw [View.ld_unit_zero (funext fun a => by match a with | ⟨0, _⟩ => rfl | ⟨1, _⟩ => rfl) _ x0,
    ld_panel x1 inb_S768x3072_S128x512_0_0 (by norm_num) (by norm_num),
    ld_panel x1 inb_S768x3072_S256x512_0_512 (by norm_num) (by norm_num),
    ld_panel x1 inb_S768x3072_S384x512_0_1024 (by norm_num) (by norm_num),
    ld_panel x1 inb_S768x3072_S512x512_0_1536 (by norm_num) (by norm_num),
    ld_panel x1 inb_S768x3072_S640x512_0_2048 (by norm_num) (by norm_num),
    ld_panel x1 inb_S768x3072_S768x512_0_2560 (by norm_num) (by norm_num),
    ld_panel x2 inb_S3072x768_S512x128_0_0 (by norm_num) (by norm_num),
    ld_panel x2 inb_S3072x768_S1024x128_0_128 (by norm_num) (by norm_num),
    ld_panel x2 inb_S3072x768_S1536x128_0_256 (by norm_num) (by norm_num),
    ld_panel x2 inb_S3072x768_S2048x128_0_384 (by norm_num) (by norm_num),
    ld_panel x2 inb_S3072x768_S2560x128_0_512 (by norm_num) (by norm_num),
    ld_panel x2 inb_S3072x768_S3072x128_0_640 (by norm_num) (by norm_num)]

/-- A column below 768 of the output block lies in the first store's rectangle, at the same coordinates, -/
theorem idx_lt (r : Fin 256) (e : Fin 1024) (h : e.val < 768) :
    (ix2 r e : S256x1024.Idx) = rO1.emb (ix2 r ⟨e.val, h⟩) := by
  funext a; apply Fin.ext
  match a with
  | ⟨0, _⟩ => show r.val = 0 + 1 * r.val; omega
  | ⟨1, _⟩ => show e.val = 0 + 1 * e.val; omega

/-- and not in the second store's, whose columns start at 768. -/
theorem not_mem_lt (r : Fin 256) (e : Fin 1024) (h : e.val < 768) : (ix2 r e : S256x1024.Idx) ∉ rO2.set := fun hmem => by
  have h3 : 768 ≤ e.val ∧ e.val < 768 + 256 := (Rect.mem_set_unit.mp hmem) (1 : Fin 2)
  omega

/-- The two stores laid over one another, read in a column below 768: the first store's payload there. -/
theorem canon_out_lt (p2 : Vec F S256x256 .f32) (p1 : Vec F S256x768 .f32) (r : Fin 256) (e : Fin 1024) (h : e.val < 768) :
    View.canon [⟨rO2, p2⟩, ⟨rO1, p1⟩] (ix2 r e : S256x1024.Idx) = p1 (ix2 r ⟨e.val, h⟩) := by
  refine (View.canon_cons_of_not_mem (⟨rO2, p2⟩ : View.Piece (Elt F) S256x1024 .f32) [⟨rO1, p1⟩] (not_mem_lt r e h)).trans ?_
  rw [idx_lt r e h]
  exact View.canon_cons_emb rO1 p1 [] _

/-- From column 768 on: the second store's payload. -/
theorem canon_out_ge (p2 : Vec F S256x256 .f32) (p1 : Vec F S256x768 .f32) (r : Fin 256) (e : Fin 1024) (h : ¬e.val < 768) :
    View.canon [⟨rO2, p2⟩, ⟨rO1, p1⟩] (ix2 r e : S256x1024.Idx) = p2 (ix2 r ⟨e.val - 768, by have := e.isLt; omega⟩) := by
  have hy : (ix2 r e : S256x1024.Idx) = rO2.emb (ix2 r ⟨e.val - 768, by have := e.isLt; omega⟩) := by
    funext a; apply Fin.ext
    match a with
    | ⟨0, _⟩ => show r.val = 0 + 1 * r.val; omega
    | ⟨1, _⟩ => show e.val = 768 + 1 * (e.val - 768); omega
  rw [hy]
  exact View.canon_cons_emb rO2 p2 _ _

variable (m : (ℓ : Loc nD τ sig) → Buf (Elt Ideal) ℓ)

/-- The output buffer after the body at point `t`, at row `r` and column `e`: in columns 0 to 767 the computed
    block, from the input block and the twelve weight panels; zero from column 768 on. -/
theorem after3_apply (c : Dev nD) (t : Fin cfg0.N) (r : Fin 256) (e : Fin 1024) :
    (dats m 0 c).after 3 t (ix2 r e)
      = if h : e.val < 768 then
          KI.kOut (xfull m c t)
            (KI.subBlk 0 0 (by norm_num) (by norm_num) (iblk m c 1 t : S768x3072.Idx → Elt Ideal .bf16))
            (KI.subBlk 0 512 (by norm_num) (by norm_num) (iblk m c 1 t : S768x3072.Idx → Elt Ideal .bf16))
            (KI.subBlk 0 1024 (by norm_num) (by norm_num) (iblk m c 1 t : S768x3072.Idx → Elt Ideal .bf16))
            (KI.subBlk 0 1536 (by norm_num) (by norm_num) (iblk m c 1 t : S768x3072.Idx → Elt Ideal .bf16))
            (KI.subBlk 0 2048 (by norm_num) (by norm_num) (iblk m c 1 t : S768x3072.Idx → Elt Ideal .bf16))
            (KI.subBlk 0 2560 (by norm_num) (by norm_num) (iblk m c 1 t : S768x3072.Idx → Elt Ideal .bf16))
            (KI.subBlk 0 0 (by norm_num) (by norm_num) (iblk m c 2 t : S3072x768.Idx → Elt Ideal .bf16))
            (KI.subBlk 0 128 (by norm_num) (by norm_num) (iblk m c 2 t : S3072x768.Idx → Elt Ideal .bf16))
            (KI.subBlk 0 256 (by norm_num) (by norm_num) (iblk m c 2 t : S3072x768.Idx → Elt Ideal .bf16))
            (KI.subBlk 0 384 (by norm_num) (by norm_num) (iblk m c 2 t : S3072x768.Idx → Elt Ideal .bf16))
            (KI.subBlk 0 512 (by norm_num) (by norm_num) (iblk m c 2 t : S3072x768.Idx → Elt Ideal .bf16))
            (KI.subBlk 0 640 (by norm_num) (by norm_num) (iblk m c 2 t : S3072x768.Idx → Elt Ideal .bf16))
            (ix2 r ⟨e.val, h⟩)
        else (0 : EReal) := by
  refine (congrFun (after0_3 m c t) _).trans ?_
  refine (congrFun (outB_panels (xfull m c t) (iblk m c 1 t) (iblk m c 2 t)) _).trans ?_
  by_cases h : e.val < 768
  · rw [dif_pos h]
    exact canon_out_lt _ _ r e h
  · rw [dif_neg h]
    refine (canon_out_ge _ _ r e h).trans ?_
    show Ideal.ofBits .f32 0x00000000#32 = 0
    exact Ideal.ofBits_zero_f32

end Cert.TriMlp.KIAfter

end
-- ==== Proof.KCover.lean ====
/-
  The geometry of the kernel's windows over its grid of 64 points.

  The output window's block at point t is rows 256 t .. 256 t + 255 and all 1024 columns of the 16384 x 1024 array, so
  a block coordinate (p, q) is the array's index (256 t + p, q), and every index of the array lies in the block of the
  point its row divided by 256 names, which is written back. The two weight windows have the whole array as their one
  block, at block index (0, 0) at every point: the block read off the array is the array.
-/
import proofs.«121291_j13245679140988_2_alg».proof.Proof.Gen.KernelIdeal.Frame
import Idealize.ShloMosaic.Lib.ValueIdx
import Idealize.ShloMosaic.Lib.Pipeline.Value

noncomputable section

namespace Cert.TriMlp.KCover

open Cert.KernelIdeal Cert.KernelIdeal.Gen Idealize.ShloMosaic Idealize.ShloMosaic.ValueIdx

/-- A grid point's number is below 64. -/
theorem t_lt (t : Fin cfg0.N) : t.val < 64 := by
  have h : t.val < grid0.N := t.isLt
  rwa [N_0] at h

/-- The output window's block index at point t is (t, 0). -/
theorem idx3 : ∀ t : Fin cfg0.N, win0_3.index t (0 : Fin 2) = t.val ∧ win0_3.index t (1 : Fin 2) = 0 :=
  (by decide +kernel : ∀ t : Fin grid0.N, _)

/-- The first weight window's block index is (0, 0) at every point. -/
theorem idx1 : ∀ t : Fin cfg0.N, win0_1.index t (0 : Fin 2) = 0 ∧ win0_1.index t (1 : Fin 2) = 0 :=
  (by decide +kernel : ∀ t : Fin grid0.N, _)

/-- The second weight window's block index is (0, 0) at every point. -/
theorem idx2 : ∀ t : Fin cfg0.N, win0_2.index t (0 : Fin 2) = 0 ∧ win0_2.index t (1 : Fin 2) = 0 :=
  (by decide +kernel : ∀ t : Fin grid0.N, _)

/-- A coordinate inside the output window's block is below the block's extent on its axis. -/
theorem j3_lt0 (t : Fin cfg0.N) (j : ((cfg0.win 3).xblock (cfg0.grid.coords t)).Idx) : (j 0).val < 256 := (j 0).isLt
theorem j3_lt1 (t : Fin cfg0.N) (j : ((cfg0.win 3).xblock (cfg0.grid.coords t)).Idx) : (j 1).val < 1024 := (j 1).isLt

/-- The array index of a coordinate inside the output window's block at point t. -/
theorem emb3 (t : Fin cfg0.N) (j : ((cfg0.win 3).xblock (cfg0.grid.coords t)).Idx) :
    ((cfg0.win 3).blk t).view.emb j
      = ix2 (⟨256 * t.val + (j 0).val, by have := t_lt t; have := j3_lt0 t j; omega⟩ : Fin 16384)
          (⟨(j 1).val, j3_lt1 t j⟩ : Fin 1024) := by
  obtain ⟨e0, e1⟩ := idx3 t
  funext a
  apply Fin.ext
  match a with
  | ⟨0, _⟩ =>
    show win0_3.index t (0 : Fin 2) * 256 + 1 * (j 0).val = 256 * t.val + (j 0).val
    omega
  | ⟨1, _⟩ =>
    show win0_3.index t (1 : Fin 2) * 1024 + 1 * (j 1).val = (j 1).val
    omega

/-- An index of the array is in point t's block iff each coordinate is in the block's range on its axis. -/
theorem mem_blk3 (t : Fin cfg0.N) (i : S16384x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v49).slice (win0_3.rect t)).set ↔ _
  rw [View.set_slice_whole, Rect.mem_set_unit]
  exact Iff.rfl

/-- Every index of the array lies in the block of a point whose block is written back. -/
theorem cover3 : ∀ i : S16384x1024.Idx, ∃ t : Fin cfg0.N, (cfg0.win 3).flush t = true ∧ i ∈ ((cfg0.win 3).blk t).view.set := by
  intro i
  have hi0 : (i 0).val < 16384 := (i 0).isLt
  have hi1 : (i 1).val < 1024 := (i 1).isLt
  have hN : (i 0).val / 256 < grid0.N := by rw [N_0]; omega
  refine ⟨⟨(i 0).val / 256, hN⟩, flush0_3 _, ?_⟩
  rw [mem_blk3]
  obtain ⟨e0, e1⟩ := idx3 ⟨(i 0).val / 256, hN⟩
  intro a
  match a with
  | ⟨0, _⟩ =>
    show win0_3.index ⟨(i 0).val / 256, hN⟩ (0 : Fin 2) * 256 ≤ (i 0).val
      ∧ (i 0).val < win0_3.index ⟨(i 0).val / 256, hN⟩ (0 : Fin 2) * 256 + 256
    rw [e0]
    show (i 0).val / 256 * 256 ≤ (i 0).val ∧ (i 0).val < (i 0).val / 256 * 256 + 256
    omega
  | ⟨1, _⟩ =>
    show win0_3.index ⟨(i 0).val / 256, hN⟩ (1 : Fin 2) * 1024 ≤ (i 1).val
      ∧ (i 1).val < win0_3.index ⟨(i 0).val / 256, hN⟩ (1 : Fin 2) * 1024 + 1024
    rw [e1]
    omega

section AnyValues
variable {F : FTy → Type} [FloatOps F]
variable (m : (ℓ : Loc nD τ sig) → Buf (Elt F) ℓ)

/-- The first weight window's block, at any point, is the whole array as the region finds it. -/
theorem iblk1 (c : Dev nD) (t : Fin cfg0.N) : (iblk m c 1 t : S768x3072.Idx → Elt F .bf16) = V m c main_v45 := by
  obtain ⟨e0, e1⟩ := idx1 t
  unfold iblk
  funext y
  show V m c main_v45 (((cfg0.win 1).blk t).view.emb y) = V m c main_v45 y
  refine congrArg (V m c main_v45) ?_
  funext a
  apply Fin.ext
  match a with
  | ⟨0, _⟩ =>
    show win0_1.index t (0 : Fin 2) * 768 + 1 * (y 0).val = (y 0).val
    omega
  | ⟨1, _⟩ =>
    show win0_1.index t (1 : Fin 2) * 3072 + 1 * (y 1).val = (y 1).val
    omega

/-- The second weight window's block, at any point, is the whole array as the region finds it. -/
theorem iblk2 (c : Dev nD) (t : Fin cfg0.N) : (iblk m c 2 t : S3072x768.Idx → Elt F .bf16) = V m c main_v47 := by
  obtain ⟨e0, e1⟩ := idx2 t
  unfold iblk
  funext y
  show V m c main_v47 (((cfg0.win 2).blk t).view.emb y) = V m c main_v47 y
  refine congrArg (V m c main_v47) ?_
  funext a
  apply Fin.ext
  match a with
  | ⟨0, _⟩ =>
    show win0_2.index t (0 : Fin 2) * 3072 + 1 * (y 0).val = (y 0).val
    omega
  | ⟨1, _⟩ =>
    show win0_2.index t (1 : Fin 2) * 768 + 1 * (y 1).val = (y 1).val
    omega

end AnyValues

end Cert.TriMlp.KCover

end
-- ==== Proof.Spec.lean ====
/-
  The mathematics both programs compute, row by row, on the extended reals.

  A row of the input is normalized in groups of 64 consecutive columns: each entry has its group's mean subtracted and
  is scaled by the reciprocal square root of the group's variance plus a small constant.  The normalized row is
  multiplied by a first weight matrix, the result is clamped below at zero and squared, and that is multiplied by a
  second weight matrix.  Both weight matrices carry a zero pattern: the first vanishes at (input e, output f) when
  f < 4 e (in particular for every e from 128 (f / 512 + 1) on), the second at (input f, output e) when 4 e < f (in particular
  for every f from 512 (e / 128 + 1) on), and output columns from 768 on are entirely zero.  So each contraction may
  stop early: the dropped terms are products with zero, and on the extended reals a product with zero is zero
  whatever the other factor is.
-/
import Idealize.ShloMosaic.PureOps.Ideal
import Idealize.ShloMosaic.Lib.ValueIdx

noncomputable section

namespace Cert.TriMlp

open Idealize.ShloMosaic Idealize.ShloMosaic.ValueIdx

/-- The constant added to a group's variance, and the group's width, as both programs spell them. -/
def eps : EReal := Ideal.ofBits .f32 0x3727C5AC#32
def c64 : EReal := Ideal.ofBits .f32 0x42800000#32

/-- A group of 64 numbers: its mean, its variance, and its entries normalized. -/
def gMean (g : Fin 64 → EReal) : EReal := Ideal.div (∑ d, g d) c64
def gVar (g : Fin 64 → EReal) : EReal := Ideal.div (∑ d, (g d - gMean g) * (g d - gMean g)) c64
def gNorm (g : Fin 64 → EReal) (d : Fin 64) : EReal := (g d - gMean g) * Ideal.rsqrt (gVar g + eps)

/-- Clamp below at zero, then square. -/
def act (z : EReal) : EReal := max z 0 * max z 0

/-- A matrix read at natural-number coordinates, zero outside its extents. -/
def nat2 {A B : ℕ} (g : (⟨2, ![A, B]⟩ : Shape).Idx → EReal) (p q : ℕ) : EReal :=
  if h : p < A ∧ q < B then g (ix2 ⟨p, h.1⟩ ⟨q, h.2⟩) else 0

theorem nat2_ix2 {A B : ℕ} (g : (⟨2, ![A, B]⟩ : Shape).Idx → EReal) (p : Fin A) (q : Fin B) :
    nat2 g p.val q.val = g (ix2 p q) := by
  unfold nat2; rw [dif_pos ⟨p.isLt, q.isLt⟩]

theorem nat2_of_lt {A B : ℕ} (g : (⟨2, ![A, B]⟩ : Shape).Idx → EReal) {p q : ℕ} (hp : p < A) (hq : q < B) :
    nat2 g p q = g (ix2 ⟨p, hp⟩ ⟨q, hq⟩) := by
  unfold nat2; rw [dif_pos ⟨hp, hq⟩]

/-- The group of 64 columns that column `e` of a row belongs to. -/
def grp (ρ : ℕ → EReal) (e : ℕ) : Fin 64 → EReal := fun d => ρ (64 * (e / 64) + d.val)

/-- Column `e` of the normalized row. -/
def hnRow (ρ : ℕ → EReal) (e : ℕ) : EReal := gNorm (grp ρ e) ⟨e % 64, Nat.mod_lt _ (by norm_num)⟩

/-- The first product at output `f`: over all 1024 inputs, and stopped at 128 (f / 512 + 1). `u1 e f` is the first
    weight at (input e, output f). -/
def h1Full (ρ : ℕ → EReal) (u1 : ℕ → ℕ → EReal) (f : ℕ) : EReal := ∑ e ∈ Finset.range 1024, hnRow ρ e * u1 e f
def h1Trunc (ρ : ℕ → EReal) (u1 : ℕ → ℕ → EReal) (f : ℕ) : EReal :=
  ∑ e ∈ Finset.range (128 * (f / 512 + 1)), hnRow ρ e * u1 e f

/-- The result at output column `e`: over all 4096 middle columns, and stopped at 512 (e / 128 + 1) with columns from
    768 on zero. `u2 f e` is the second weight at (input f, output e). -/
def yFull (ρ : ℕ → EReal) (u1 u2 : ℕ → ℕ → EReal) (e : ℕ) : EReal :=
  ∑ f ∈ Finset.range 4096, act (h1Full ρ u1 f) * u2 f e
def yTrunc (ρ : ℕ → EReal) (u1 u2 : ℕ → ℕ → EReal) (e : ℕ) : EReal :=
  if e < 768 then ∑ f ∈ Finset.range (512 * (e / 128 + 1)), act (h1Trunc ρ u1 f) * u2 f e else 0

end Cert.TriMlp

end
-- ==== Proof.MaskDefs.lean ====
/-
  The two zero patterns and the two masked weight matrices, named once for both programs.

  Each program builds the same two 0/1 matrices from row and column numbers alone: the first, of shape 4096 x 1024,
  is one at (f, e) exactly when 4 e ≤ f, e < 768 and f < 3072; the second, of shape 1024 x 4096, is one at (e, f)
  exactly when f ≤ 4 e, f < 3072 and e < 768.  Each weight matrix is multiplied entry by entry with its pattern.
-/
import proofs.«121291_j13245679140988_2_alg».proof.Proof.Gen.ReferenceIdeal.Read
import proofs.«121291_j13245679140988_2_alg».proof.Proof.Spec

noncomputable section

namespace Cert.TriMlp

open Idealize.ShloMosaic Idealize.ShloMosaic.ValueIdx

/-- The first pattern (rows: the 4096 middle columns f; columns: the 1024 input columns e) and the second
    (rows: the 1024 output columns e; columns: the 4096 middle columns f), as the extended reals 0 and 1. -/
def M1 : (⟨2, ![4096, 1024]⟩ : Shape).Idx → EReal := Cert.ReferenceIdeal.Read.val_main_v19 (F := Ideal)
def M2 : (⟨2, ![1024, 4096]⟩ : Shape).Idx → EReal := Cert.ReferenceIdeal.Read.val_main_v39 (F := Ideal)

/-- The first masked weight at (input e, middle f), from the 4096 x 1024 matrix; the second at (middle f, output e),
    from the 1024 x 4096 matrix. -/
def u1of (Wfc : (⟨2, ![4096, 1024]⟩ : Shape).Idx → EReal) : ℕ → ℕ → EReal := fun e f => nat2 Wfc f e * nat2 M1 f e
def u2of (Wpr : (⟨2, ![1024, 4096]⟩ : Shape).Idx → EReal) : ℕ → ℕ → EReal := fun f e => nat2 Wpr e f * nat2 M2 e f

/-- Row (b, s) of the 4 x 4096 x 1024 input as a function of the column, zero from 1024 on. -/
def rowX (X : (⟨3, ![4, 4096, 1024]⟩ : Shape).Idx → EReal) (b : Fin 4) (s : Fin 4096) : ℕ → EReal :=
  fun c => if h : c < 1024 then X (ix3 b s ⟨c, h⟩) else 0

end Cert.TriMlp

end
-- ==== Proof.KHost.lean ====
/-
  What the three staged arrays hold when the kernel's region is entered, as functions of the argument arrays.

  The first staged array is the 4 x 4096 x 1024 input laid out as 16384 rows of 1024: row 4096 b + s is row (b, s).
  The second is the first weight matrix times its zero pattern, cut to its first 3072 rows and 768 columns and
  transposed: its entry at (e, f) is the product at (f, e).  The third is the second weight matrix times its zero
  pattern, cut to its first 768 rows and 3072 columns and transposed: its entry at (f, e) is the product at (e, f).
  Narrowing a number's format changes nothing on the extended reals.
-/
import proofs.«121291_j13245679140988_2_alg».proof.Proof.Gen.KernelIdeal.Frame
import proofs.«121291_j13245679140988_2_alg».proof.Proof.MaskDefs
import Idealize.ShloMosaic.Lib.StableHlo.Run
import Idealize.ShloMosaic.Lib.ValueIdx
import Idealize.ShloMosaic.Lib.ValueLayout
import Idealize.ShloMosaic.Lib.Pipeline.Value

noncomputable section

namespace Cert.TriMlp.KHost

open Idealize.ShloMosaic Idealize.ShloMosaic.TcCoe Idealize.SL.Sem Idealize.ShloMosaic.StableHlo
open Cert.KernelIdeal Cert.KernelIdeal.Gen Idealize.ShloMosaic.ValueIdx

variable (m : (ℓ : Loc nD τ sig) → Buf (Elt Ideal) ℓ)

/-- The three argument arrays of a core, at their shapes. -/
abbrev aX (c : Dev nD) : (⟨3, ![4, 4096, 1024]⟩ : Shape).Idx → EReal := m ((c : Thread nD τ).loc main_arg0)
abbrev aFc (c : Dev nD) : (⟨2, ![4096, 1024]⟩ : Shape).Idx → EReal := m ((c : Thread nD τ).loc main_arg1)
abbrev aPr (c : Dev nD) : (⟨2, ![1024, 4096]⟩ : Shape).Idx → EReal := m ((c : Thread nD τ).loc main_arg2)

/-- The three staged arrays as the region finds them, at their shapes. -/
abbrev xV (c : Dev nD) : (⟨2, ![16384, 1024]⟩ : Shape).Idx → EReal := V m c main_v48
abbrev w1V (c : Dev nD) : (⟨2, ![768, 3072]⟩ : Shape).Idx → EReal := V m c main_v45
abbrev w2V (c : Dev nD) : (⟨2, ![3072, 768]⟩ : Shape).Idx → EReal := V m c main_v47

/-- The input as the region finds it: the argument recast to 16384 x 1024. -/
theorem V48_eq (c : Dev nD) :
    V m c main_v48 = shapeCast S16384x1024 (m ((c : Thread nD τ).loc main_arg0)) shapeCasts_S4x4096x1024_S16384x1024 := by
  show StableHlo.after hostOps0 (fun b => m (c, b)) (Proc.devRef .tc main_v48) = _
  after_results_simp
  rfl

set_option maxHeartbeats 4000000 in
/-- The first staged weight: the product with the first pattern, narrowed, cut to 3072 x 768, transposed. -/
theorem V45_eq (c : Dev nD) :
    V m c main_v45 = transpose S768x3072 [1, 0] (extractStridedSlice S3072x768 ![0, 0]
      (truncf (F := Ideal) .bf16 (mulf (F := Ideal) (φ := .f32) (s := S4096x1024) (m ((c : Thread nD τ).loc main_arg1)) M1) bitsLt_bf16_f32)
      slices_S4096x1024_S3072x768_0_0) transposes_S3072x768_S768x3072_1_0 := by
  show StableHlo.after hostOps0 (fun b => m (c, b)) (Proc.devRef .tc main_v45) = _
  after_results_simp
  rfl

set_option maxHeartbeats 4000000 in
/-- The second staged weight: the product with the second pattern, narrowed, cut to 768 x 3072, transposed. -/
theorem V47_eq (c : Dev nD) :
    V m c main_v47 = transpose S3072x768 [1, 0] (extractStridedSlice S768x3072 ![0, 0]
      (truncf (F := Ideal) .bf16 (mulf (F := Ideal) (φ := .f32) (s := S1024x4096) (m ((c : Thread nD τ).loc main_arg2)) M2) bitsLt_bf16_f32)
      slices_S1024x4096_S768x3072_0_0) transposes_S768x3072_S3072x768_1_0 := by
  show StableHlo.after hostOps0 (fun b => m (c, b)) (Proc.devRef .tc main_v47) = _
  after_results_simp
  rfl

/-- Row 4096 b + s of the recast input is row (b, s) of the argument. -/
theorem V48_apply (c : Dev nD) (b : Fin 4) (s : Fin 4096) (e : Fin 1024) (R : Fin 16384) (hR : R.val = b.val * 4096 + s.val) :
    V m c main_v48 (ix2 R e) = aX m c (ix3 b s e) := by
  rw [V48_eq]
  refine shapeCast_apply _ _ (ix2 R e) (ix3 b s e) ?_
  rw [Shape.rowMajor_val_three, Shape.rowMajor_val_two]
  show (b.val * 4096 + s.val) * 1024 + e.val = R.val * 1024 + e.val
  rw [hR]

/-- The first staged weight at (input e, middle f): the first weight times its pattern at (f, e). -/
theorem V45_apply (c : Dev nD) (e : Fin 768) (f : Fin 3072) :
    V m c main_v45 (ix2 e f)
      = aFc m c (ix2 (⟨f.val, by omega⟩ : Fin 4096) (⟨e.val, by omega⟩ : Fin 1024))
        * M1 (ix2 (⟨f.val, by omega⟩ : Fin 4096) (⟨e.val, by omega⟩ : Fin 1024)) := by
  rw [V45_eq]
  refine (transpose_ix2_apply _ _ e f).trans ?_
  refine (extractStridedSlice_apply _ _ _ (ix2 f e) (ix2 (⟨f.val, by omega⟩ : Fin 4096) (⟨e.val, by omega⟩ : Fin 1024)) (fun a => ?_)).trans ?_
  · match a with
    | ⟨0, _⟩ => exact (Nat.zero_add _).symm
    | ⟨1, _⟩ => exact (Nat.zero_add _).symm
  · rfl

/-- The second staged weight at (middle f, output e): the second weight times its pattern at (e, f). -/
theorem V47_apply (c : Dev nD) (f : Fin 3072) (e : Fin 768) :
    V m c main_v47 (ix2 f e)
      = aPr m c (ix2 (⟨e.val, by omega⟩ : Fin 1024) (⟨f.val, by omega⟩ : Fin 4096))
        * M2 (ix2 (⟨e.val, by omega⟩ : Fin 1024) (⟨f.val, by omega⟩ : Fin 4096)) := by
  rw [V47_eq]
  refine (transpose_ix2_apply _ _ f e).trans ?_
  refine (extractStridedSlice_apply _ _ _ (ix2 e f) (ix2 (⟨e.val, by omega⟩ : Fin 1024) (⟨f.val, by omega⟩ : Fin 4096)) (fun a => ?_)).trans ?_
  · match a with
    | ⟨0, _⟩ => exact (Nat.zero_add _).symm
    | ⟨1, _⟩ => exact (Nat.zero_add _).symm
  · rfl

end Cert.TriMlp.KHost

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.KHn1.lean ====
/-
  One group of 64 columns of a 256-row block, normalized by its own mean and variance.

  The group's row sum is kept as a one-column block; the mean is that sum over 64; the centred group is the group less
  its mean copied along each row; the variance is the mean of the centred group's squares; and the normalized group is
  the centred group times the reciprocal square root of the variance plus a small constant, copied along each row.
  Read at row r and column d at the ideal values, this is the normalization of the 64 numbers of row r.
-/
import proofs.«121291_j13245679140988_2_alg».proof.Proof.KTerm
import proofs.«121291_j13245679140988_2_alg».proof.Proof.Spec
import proofs.«121291_j13245679140988_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.TriMlp.KHn

open Idealize.ShloMosaic Idealize.ShloMosaic.ValueIdx Cert.KernelIdeal Cert.KernelIdeal.Gen Cert.TriMlp

section AnyValues
variable {F : FTy → Type} [FloatOps F]

/-- The sum of each row of a 256 x 64 block, kept as a 256 x 1 column. -/
def rowSum (v : FVec F S256x64 .f32) : FVec F S256x1 .f32 :=
  shapeCast S256x1 (multiReduction .add [1] S256 v 0x00000000#32 reduces_S256x64_S256 (.inl rfl) rfl) shapeCasts_S256_S256x1

/-- The mean of each row: the row sum over 64. -/
def meanCol (v : FVec F S256x64 .f32) : FVec F S256x1 .f32 :=
  divf (rowSum v) (broadcast S256x1 (Scalar.ofBits .f32 0x42800000#32))

/-- The block less its rows' means. -/
def centered (v : FVec F S256x64 .f32) : FVec F S256x64 .f32 :=
  subf v (broadcastTo S256x64 (meanCol v) broadcasts_S256x1_S256x64)

/-- The variance of each row: the mean of the centred row's squares. -/
def varCol (v : FVec F S256x64 .f32) : FVec F S256x1 .f32 :=
  meanCol (mulf (centered v) (centered v))

/-- The block with each row normalized by its own mean and variance. -/
def lnBlock (v : FVec F S256x64 .f32) : FVec F S256x64 .f32 :=
  mulf (centered v)
    (broadcastTo S256x64 (rsqrt (addf (varCol v) (broadcast S256x1 (Scalar.ofBits .f32 0x3727C5AC#32))))
      broadcasts_S256x1_S256x64)

end AnyValues

/-- A row's sum at the ideal values is the sum of the row's 64 entries. -/
theorem rowSum_apply (v : FVec Ideal S256x64 .f32) (r : Fin 256) (u : Fin 1) :
    rowSum v (ix2 r u) = ∑ d : Fin 64, v (ix2 r d) := by
  unfold rowSum
  refine (Keepdims.shapeCast_a_a1_apply _ shapeCasts_S256_S256x1 r u).trans ?_
  refine (Ideal.multiReduction_add_single v 0x00000000#32 reduces_S256x64_S256 _ _ (ix1 r)).trans ?_
  refine Finset.sum_congr rfl fun k _ => congrArg v ?_
  funext a
  match a with
  | ⟨0, _⟩ => exact Fin.ext rfl
  | ⟨1, _⟩ => exact Fin.ext rfl

/-- A row's mean at the ideal values. -/
theorem meanCol_apply (v : FVec Ideal S256x64 .f32) (r : Fin 256) (u : Fin 1) :
    meanCol v (ix2 r u) = gMean fun d => v (ix2 r d) := by
  show Ideal.div (rowSum v (ix2 r u)) c64 = _
  rw [rowSum_apply]
  rfl

/-- The centred block at the ideal values. -/
theorem centered_apply (v : FVec Ideal S256x64 .f32) (r : Fin 256) (d : Fin 64) :
    centered v (ix2 r d) = v (ix2 r d) - gMean fun d' => v (ix2 r d') := by
  show v (ix2 r d) - broadcastTo S256x64 (meanCol v) broadcasts_S256x1_S256x64 (ix2 r d) = _
  rw [Keepdims.broadcastTo_a1_ab_apply (meanCol v) broadcasts_S256x1_S256x64 r d 0, meanCol_apply]

/-- A row's variance at the ideal values. -/
theorem varCol_apply (v : FVec Ideal S256x64 .f32) (r : Fin 256) (u : Fin 1) :
    varCol v (ix2 r u) = gVar fun d => v (ix2 r d) := by
  unfold varCol
  rw [meanCol_apply]
  show Ideal.div (∑ d : Fin 64, centered v (ix2 r d) * centered v (ix2 r d)) c64 = _
  simp only [centered_apply]
  rfl

/-- The normalized block at the ideal values: row r's 64 numbers normalized, at column d. -/
theorem lnBlock_apply (v : FVec Ideal S256x64 .f32) (r : Fin 256) (d : Fin 64) :
    lnBlock v (ix2 r d) = gNorm (fun d' => v (ix2 r d')) d := by
  show centered v (ix2 r d) * broadcastTo S256x64
    (rsqrt (addf (varCol v) (broadcast S256x1 (Scalar.ofBits .f32 0x3727C5AC#32)))) broadcasts_S256x1_S256x64 (ix2 r d) = _
  rw [Keepdims.broadcastTo_a1_ab_apply _ broadcasts_S256x1_S256x64 r d 0, centered_apply]
  show _ * Ideal.rsqrt (varCol v (ix2 r 0) + eps) = _
  rw [varCol_apply]
  rfl

end Cert.TriMlp.KHn

end
-- ==== Proof.KHn.lean ====
/-
  The normalized block read at an index, at the ideal values.

  The block is twelve groups of 64 columns laid side by side, each group the corresponding 64 columns of the loaded
  block normalized row by row by its own mean and variance, and the whole narrowed to the shorter format (which keeps
  every ideal value). Column e of row r therefore lies in group e / 64 at column e % 64 of that group, and is the
  normalization of the 64 numbers of row r in columns 64 (e / 64) .. 64 (e / 64) + 63, taken at place e % 64.
-/
import proofs.«121291_j13245679140988_2_alg».proof.Proof.KTerm
import proofs.«121291_j13245679140988_2_alg».proof.Proof.Spec
import proofs.«121291_j13245679140988_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import proofs.«121291_j13245679140988_2_alg».proof.Proof.KHn1

noncomputable section

namespace Cert.TriMlp.KHn

open Idealize.ShloMosaic Idealize.ShloMosaic.ValueIdx Cert.KernelIdeal Cert.KernelIdeal.Gen Cert.TriMlp

/-- Each of the twelve groups of 64 columns lies inside the 768 columns. -/
theorem slicesAt : ∀ h : Fin 12, S256x768.Slices ![0, 64 * h.val] S256x64 := by decide

section AnyValues
variable {F : FTy → Type} [FloatOps F]

/-- Group h of a 256 x 768 block, normalized. -/
def pieceAt (x : FVec F S256x768 .f32) (h : Fin 12) : FVec F S256x64 .f32 :=
  lnBlock (extractStridedSlice S256x64 ![0, 64 * h.val] x (slicesAt h))

/-- The body's normalized block is the twelve normalized groups laid side by side, narrowed. -/
theorem kHn_eq (x : Vec F S256x768 .f32) :
    KI.kHn x = truncf .bf16 (concatenate S256x768 1
      (List.ofFn fun h : Fin 12 => (⟨S256x64, pieceAt (k0_pay2 x) h⟩ : (s : Shape) × (s.Idx → F .f32)))
      concatenates_S256x64_S256x64_S256x64_S256x64_S256x64_S256x64_S256x64_S256x64_S256x64_S256x64_S256x64_S256x64_S256x768_d1) bitsLt_bf16_f32 := rfl

end AnyValues

/-- A normalized group at the ideal values: at row r and column d, the normalization of row r's 64 numbers in the
    group's columns. -/
theorem pieceAt_apply (x : FVec Ideal S256x768 .f32) (h : Fin 12) (r : Fin 256) (d : Fin 64) :
    pieceAt x h (ix2 r d) = gNorm (fun d' => x (ix2 r ⟨64 * h.val + d'.val, by omega⟩)) d := by
  unfold pieceAt
  rw [lnBlock_apply]
  refine congrArg (fun g => gNorm g d) (funext fun d' => ?_)
  exact slice2_axis1_apply (64 * h.val) x (slicesAt h) r d' ⟨64 * h.val + d'.val, by omega⟩ rfl

/-- Row r of the loaded 256 x 768 block as a function of the column, zero from 768 on. -/
def rowOf (x : Vec Ideal S256x768 .f32) (r : Fin 256) : ℕ → EReal :=
  fun c => if h : c < 768 then x (ix2 r ⟨c, h⟩) else 0

/-- The body's normalized block at row r and column e is column e of row r normalized group by group. -/
theorem kHn_apply (x : Vec Ideal S256x768 .f32) (r : Fin 256) (e : Fin 768) :
    KI.kHn (F := Ideal) x (ix2 r e) = hnRow (rowOf x r) e.val := by
  have hq : e.val / 64 < 12 := by omega
  have hm : e.val % 64 < 64 := Nat.mod_lt _ (by norm_num)
  have hx : k0_pay2 (F := Ideal) x = x := shapeCast_self x _
  rw [kHn_eq, hx]
  refine (truncf_apply _ bitsLt_bf16_f32 (ix2 r e)).trans ?_
  refine (concatenate_ofFn_apply (t := S256x768) (s₁ := S256x64) 1 (fun h : Fin 12 => pieceAt (F := Ideal) x h) _ rfl 64 rfl
    (ix2 r e) ⟨e.val / 64, hq⟩ rfl (ix2 r ⟨e.val % 64, hm⟩) rfl ?_).trans ?_
  · intro b hb
    match b with
    | ⟨0, _⟩ => rfl
    | ⟨1, _⟩ => exact absurd rfl hb
  · rw [pieceAt_apply]
    unfold hnRow
    refine congrArg (fun g => gNorm g _) (funext fun d' => ?_)
    unfold grp rowOf
    have hd : 64 * (e.val / 64) + d'.val < 768 := by omega
    rw [dif_pos hd]

end Cert.TriMlp.KHn

end
-- ==== Proof.KMmBase.lean ====
/-
  Four facts the two matrix-product stages share, at the ideal values.

  A rows-by-contraction times contraction-by-columns product into the zero splat, read at (r, c), is the sum over the
  contraction coordinate k of the left operand at (r, k) times the right operand at (k, c).  A clamp below at zero
  followed by a square and a narrowing reads, at an index, `act` of the operand there.  A product of the leading K
  columns of a matrix with a panel of a second matrix whose corner is in row 0 is a sum over k < K of the two matrices
  read at natural-number coordinates.  Six blocks of one width laid side by side read, at column W j + c, block j at
  column c.
-/
import proofs.«121291_j13245679140988_2_alg».proof.Proof.KTerm
import proofs.«121291_j13245679140988_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.TriMlp.KMm

open Idealize.ShloMosaic Idealize.ShloMosaic.ValueIdx Cert.KernelIdeal Cert.KernelIdeal.Gen Cert.TriMlp

/-- The plain product of an M x K and a K x N matrix into the zero splat, at (r, c): the contraction index has one
    coordinate k, the left operand is read at (r, k) and the right one at (k, c). -/
theorem plain_matmul_apply {M K N : ℕ} {φ₁ φ₂ : FTy} (prec : Option ContractPrecision)
    (a : FVec Ideal ⟨2, ![M, K]⟩ φ₁) (b : FVec Ideal ⟨2, ![K, N]⟩ φ₂) (r : Fin M) (c : Fin N) :
    FloatOps.matmul (DotDims.plain M K N) prec a b (constant (F := Ideal) ⟨2, ![M, N]⟩ .f32 0x00000000#32) (ix2 r c)
      = ∑ k : Fin K, a (ix2 r k) * b (ix2 k c) := by
  refine (Ideal.matmul_constant_zero_apply (DotDims.plain M K N) prec a b (ix2 r c)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun ax => Fin.ext (by
      match ax with
      | ⟨0, _⟩ => exact ((DotDims.plain M K N).rhsIdx_val_of_single rfl _ _).trans hk
      | ⟨1, _⟩ => rfl)
  rw [el, er]

/-- The same for any dimension record that is the plain one (each of the body's twelve records is, by its fields). -/
theorem matmul_apply_of_plain {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    FloatOps.matmul D prec a b (constant (F := Ideal) ⟨2, ![M, N]⟩ .f32 0x00000000#32) (ix2 r c)
      = ∑ k : Fin K, a (ix2 r k) * b (ix2 k c) := by
  subst hD; exact plain_matmul_apply prec a b r c

/-- Clamp below at the zero scalar, square, narrow: at an index, `act` of the operand there. -/
theorem clampSq_apply {s : Shape} (X : FVec Ideal s .f32) (h : FTy.bf16.bits < FTy.f32.bits) (i : s.Idx) :
    (truncf .bf16 (mulf (maximumf X (broadcast s (Scalar.ofBits (F := Ideal) .f32 0x00000000#32)))
        (maximumf X (broadcast s (Scalar.ofBits (F := Ideal) .f32 0x00000000#32)))) h : FVec Ideal s .bf16) i = act (X i) := by
  show max (X i) (Ideal.ofBits .f32 0x00000000#32) * max (X i) (Ideal.ofBits .f32 0x00000000#32) = act (X i)
  rw [Ideal.ofBits_zero_f32]; rfl

/-- The leading K columns of an M x K' matrix, at (r, k): the matrix at (r, k). -/
theorem lead_apply {M K K' : ℕ} {α : Type} (x : (⟨2, ![M, K']⟩ : Shape).Idx → α)
    (hs : (⟨2, ![M, K']⟩ : Shape).Slices ![0, 0] ⟨2, ![M, K]⟩) (hK : K ≤ K') (r : Fin M) (k : Fin K) :
    extractStridedSlice ⟨2, ![M, K]⟩ ![0, 0] x hs (ix2 r k) = x (ix2 r (Fin.castLE hK k)) :=
  slice2_axis1_apply 0 x hs r k (Fin.castLE hK k) (Nat.zero_add _).symm

/-- A matrix read at natural-number coordinates inside a panel of it whose corner is (oa, ob). -/
theorem nat2_subBlk {A B a b : ℕ} (oa ob : ℕ) (ha : oa + a ≤ A) (hb : ob + b ≤ B)
    (w : (⟨2, ![A, B]⟩ : Shape).Idx → EReal) (p : Fin a) (q : Fin b) :
    KI.subBlk oa ob ha hb w (ix2 p q) = nat2 w (oa + p.val) (ob + q.val) := by
  have hp : oa + p.val < A := by have := p.isLt; omega
  have hq : ob + q.val < B := by have := q.isLt; omega
  exact (nat2_of_lt w hp hq).symm

/-- The leading K columns of `x` times the K x N panel of `w` whose corner is (0, ob), at (r, c), as a sum over
    natural numbers below K. -/
theorem sum_lead_panel {M K' A B K N : ℕ} (x : (⟨2, ![M, K']⟩ : Shape).Idx → EReal)
    (w : (⟨2, ![A, B]⟩ : Shape).Idx → EReal) (hK : K ≤ K') (ob : ℕ) (ha : 0 + K ≤ A) (hb : ob + N ≤ B)
    (r : Fin M) (c : Fin N) :
    ∑ k : Fin K, x (ix2 r (Fin.castLE hK k)) * KI.subBlk 0 ob ha hb w (ix2 k c)
      = ∑ k ∈ Finset.range K, nat2 x r.val k * nat2 w k (ob + c.val) := by
  rw [← Fin.sum_univ_eq_sum_range (fun k => nat2 x r.val k * nat2 w k (ob + c.val)) K]
  refine Finset.sum_congr rfl fun k _ => ?_
  rw [nat2_subBlk, Nat.zero_add, nat2_of_lt x r.isLt (Nat.lt_of_lt_of_le k.isLt hK)]
  rfl

/-- Six blocks of width W laid side by side, at column W j + c: block j at column c. -/
theorem concat6_apply {M W T : ℕ} {α : Type} (p0 p1 p2 p3 p4 p5 : (⟨2, ![M, W]⟩ : Shape).Idx → α)
    (h : Shape.Concatenates [⟨2, ![M, W]⟩, ⟨2, ![M, W]⟩, ⟨2, ![M, W]⟩, ⟨2, ![M, W]⟩, ⟨2, ![M, W]⟩, ⟨2, ![M, W]⟩] ⟨2, ![M, T]⟩ 1)
    (r : Fin M) (j : Fin 6) (c : Fin W) (f : Fin T) (hf : f.val = W * j.val + c.val) :
    concatenate ⟨2, ![M, T]⟩ 1 [⟨⟨2, ![M, W]⟩, p0⟩, ⟨⟨2, ![M, W]⟩, p1⟩, ⟨⟨2, ![M, W]⟩, p2⟩, ⟨⟨2, ![M, W]⟩, p3⟩,
        ⟨⟨2, ![M, W]⟩, p4⟩, ⟨⟨2, ![M, W]⟩, p5⟩] h (ix2 r f) = (![p0, p1, p2, p3, p4, p5] j) (ix2 r c) := by
  have hW : 0 < W := Nat.lt_of_le_of_lt (Nat.zero_le _) c.isLt
  refine concatenate_ofFn_apply (t := ⟨2, ![M, T]⟩) (s₁ := ⟨2, ![M, W]⟩) 1 ![p0, p1, p2, p3, p4, p5] h rfl W rfl (ix2 r f) j
    ?_ (ix2 r c) ?_ fun b hb => ?_
  · show f.val / W = j.val
    rw [hf, Nat.mul_add_div hW, Nat.div_eq_of_lt c.isLt, Nat.add_zero]
  · show c.val = f.val % W
    rw [hf, Nat.mul_add_mod, Nat.mod_eq_of_lt c.isLt]
  · match b with
    | ⟨0, _⟩ => rfl
    | ⟨1, _⟩ => exact absurd rfl hb

end Cert.TriMlp.KMm

end
-- ==== Proof.KMm1.lean ====
/-
  The first matrix-product stage of the body, read at an index, at the ideal values.

  Tile j (j = 0 … 5) multiplies the leading 128 (j + 1) columns of the normalized 256 x 768 block with a
  128 (j + 1) x 512 panel, clamps the product below at zero and squares it.  Over the panels of one 768 x 3072 matrix
  `w1` whose corners are (0, 512 j), the six tiles laid side by side are a 256 x 3072 matrix whose entry (r, f), with
  f = 512 j + c, is `act` of the sum over e' < 128 (f / 512 + 1) of the block at (r, e') times `w1` at (e', f).
-/
import proofs.«121291_j13245679140988_2_alg».proof.Proof.KMmBase

noncomputable section

namespace Cert.TriMlp.KMm

open Idealize.ShloMosaic Idealize.ShloMosaic.ValueIdx Cert.KernelIdeal Cert.KernelIdeal.Gen Cert.TriMlp

/-- Tile 0 at (r, c): the leading 128 columns against a 128 x 512 panel. -/
theorem tile0_apply (v231 : FVec Ideal S256x768 .bf16) (p : Vec Ideal S128x512 .bf16) (r : Fin 256) (c : Fin 512) :
    k0_pay27 (F := Ideal) (extractStridedSlice S256x128 ![0, 0] v231 slices_S256x768_o0_0_S256x128) (k0_pay26 p) (ix2 r c)
      = act (∑ k : Fin 128, v231 (ix2 r (Fin.castLE (by norm_num) k)) * p (ix2 k c)) := by
  unfold k0_pay27 k0_pay26
  refine (clampSq_apply _ _ _).trans (congrArg act ?_)
  refine (matmul_apply_of_plain _ rfl none _ _ r c).trans (Finset.sum_congr rfl fun k _ => ?_)
  rw [shapeCast_self, lead_apply v231 _ (by norm_num) r k]

/-- Tile 1 at (r, c): the leading 256 columns against a 256 x 512 panel. -/
theorem tile1_apply (v231 : FVec Ideal S256x768 .bf16) (p : Vec Ideal S256x512 .bf16) (r : Fin 256) (c : Fin 512) :
    k0_pay28 (F := Ideal) v231 p (ix2 r c)
      = act (∑ k : Fin 256, v231 (ix2 r (Fin.castLE (by norm_num) k)) * p (ix2 k c)) := by
  unfold k0_pay28
  refine (clampSq_apply _ _ _).trans (congrArg act ?_)
  refine (matmul_apply_of_plain _ rfl none _ _ r c).trans (Finset.sum_congr rfl fun k _ => ?_)
  rw [shapeCast_self, lead_apply v231 _ (by norm_num) r k]

/-- Tile 2 at (r, c): the leading 384 columns against a 384 x 512 panel. -/
theorem tile2_apply (v231 : FVec Ideal S256x768 .bf16) (p : Vec Ideal S384x512 .bf16) (r : Fin 256) (c : Fin 512) :
    k0_pay29 (F := Ideal) v231 p (ix2 r c)
      = act (∑ k : Fin 384, v231 (ix2 r (Fin.castLE (by norm_num) k)) * p (ix2 k c)) := by
  unfold k0_pay29
  refine (clampSq_apply _ _ _).trans (congrArg act ?_)
  refine (matmul_apply_of_plain _ rfl none _ _ r c).trans (Finset.sum_congr rfl fun k _ => ?_)
  rw [shapeCast_self, lead_apply v231 _ (by norm_num) r k]

/-- Tile 3 at (r, c): the leading 512 columns against a 512 x 512 panel. -/
theorem tile3_apply (v231 : FVec Ideal S256x768 .bf16) (p : Vec Ideal S512x512 .bf16) (r : Fin 256) (c : Fin 512) :
    k0_pay30 (F := Ideal) v231 p (ix2 r c)
      = act (∑ k : Fin 512, v231 (ix2 r (Fin.castLE (by norm_num) k)) * p (ix2 k c)) := by
  unfold k0_pay30
  refine (clampSq_apply _ _ _).trans (congrArg act ?_)
  refine (matmul_apply_of_plain _ rfl none _ _ r c).trans (Finset.sum_congr rfl fun k _ => ?_)
  rw [shapeCast_self, lead_apply v231 _ (by norm_num) r k]

/-- Tile 4 at (r, c): the leading 640 columns against a 640 x 512 panel. -/
theorem tile4_apply (v231 : FVec Ideal S256x768 .bf16) (p : Vec Ideal S640x512 .bf16) (r : Fin 256) (c : Fin 512) :
    k0_pay31 (F := Ideal) v231 p (ix2 r c)
      = act (∑ k : Fin 640, v231 (ix2 r (Fin.castLE (by norm_num) k)) * p (ix2 k c)) := by
  unfold k0_pay31
  refine (clampSq_apply _ _ _).trans (congrArg act ?_)
  refine (matmul_apply_of_plain _ rfl none _ _ r c).trans (Finset.sum_congr rfl fun k _ => ?_)
  rw [shapeCast_self, lead_apply v231 _ (by norm_num) r k]

/-- Tile 5: the whole block against a 768 x 512 panel, clamped below at zero and squared. -/
def tile5 (v231 : FVec Ideal S256x768 .bf16) (l272 : Vec Ideal S768x512 .bf16) : FVec Ideal S256x512 .bf16 :=
  truncf .bf16 (mulf
    (maximumf (matmul dot_S256x768_S768x512_S256x512_1_0_0_1_n_n none v231 (k0_pay32 l272) (constant S256x512 .f32 0x00000000#32))
      (broadcast S256x512 (Scalar.ofBits .f32 0x00000000#32)))
    (maximumf (matmul dot_S256x768_S768x512_S256x512_1_0_0_1_n_n none v231 (k0_pay32 l272) (constant S256x512 .f32 0x00000000#32))
      (broadcast S256x512 (Scalar.ofBits .f32 0x00000000#32)))) bitsLt_bf16_f32

theorem tile5_apply (v231 : FVec Ideal S256x768 .bf16) (p : Vec Ideal S768x512 .bf16) (r : Fin 256) (c : Fin 512) :
    tile5 v231 p (ix2 r c) = act (∑ k : Fin 768, v231 (ix2 r (Fin.castLE (Nat.le_refl 768) k)) * p (ix2 k c)) := by
  unfold tile5 k0_pay32
  refine (clampSq_apply _ _ _).trans (congrArg act ?_)
  refine (matmul_apply_of_plain _ rfl none _ _ r c).trans (Finset.sum_congr rfl fun k _ => ?_)
  rw [shapeCast_self]
  rfl

/-- The six tiles laid side by side: the 256 x 3072 value the second stage reads. -/
def mid (v231 : FVec Ideal S256x768 .bf16) (l233 : Vec Ideal S128x512 .bf16) (l241 : Vec Ideal S256x512 .bf16)
    (l249 : Vec Ideal S384x512 .bf16) (l257 : Vec Ideal S512x512 .bf16) (l265 : Vec Ideal S640x512 .bf16)
    (l272 : Vec Ideal S768x512 .bf16) : FVec Ideal S256x3072 .bf16 :=
  concatenate S256x3072 1 [⟨S256x512, k0_pay27 (extractStridedSlice S256x128 ![0, 0] v231 slices_S256x768_o0_0_S256x128) (k0_pay26 l233)⟩,
    ⟨S256x512, k0_pay28 v231 l241⟩, ⟨S256x512, k0_pay29 v231 l249⟩, ⟨S256x512, k0_pay30 v231 l257⟩,
    ⟨S256x512, k0_pay31 v231 l265⟩, ⟨S256x512, tile5 v231 l272⟩]
    concatenates_S256x512_S256x512_S256x512_S256x512_S256x512_S256x512_S256x3072_d1

/-- The same over the six panels of one 768 x 3072 matrix: panel j has 128 (j + 1) rows and its corner at (0, 512 j). -/
def midW (v231 : FVec Ideal S256x768 .bf16) (w1 : S768x3072.Idx → EReal) : FVec Ideal S256x3072 .bf16 :=
  mid v231 (KI.subBlk 0 0 (by norm_num) (by norm_num) w1) (KI.subBlk 0 512 (by norm_num) (by norm_num) w1)
    (KI.subBlk 0 1024 (by norm_num) (by norm_num) w1) (KI.subBlk 0 1536 (by norm_num) (by norm_num) w1)
    (KI.subBlk 0 2048 (by norm_num) (by norm_num) w1) (KI.subBlk 0 2560 (by norm_num) (by norm_num) w1)

/-- Entry (r, f) of the middle value: column f lies in tile f / 512, whose contraction runs over the leading
    128 (f / 512 + 1) columns of the block. -/
theorem midW_apply (v231 : FVec Ideal S256x768 .bf16) (w1 : S768x3072.Idx → EReal) (r : Fin 256) (f : Fin 3072) :
    midW v231 w1 (ix2 r f)
      = act (∑ e' ∈ Finset.range (128 * (f.val / 512 + 1)), nat2 v231 r.val e' * nat2 w1 e' f.val) := by
  obtain ⟨j, c, hf⟩ : ∃ (j : Fin 6) (c : Fin 512), f.val = 512 * j.val + c.val :=
    ⟨⟨f.val / 512, by have := f.isLt; omega⟩, ⟨f.val % 512, Nat.mod_lt _ (by norm_num)⟩, by
      show f.val = 512 * (f.val / 512) + f.val % 512
      omega⟩
  have hj : f.val / 512 = j.val := by have := c.isLt; omega
  rw [hj, hf]
  unfold midW mid
  refine (concat6_apply _ _ _ _ _ _ _ r j c f hf).trans ?_
  clear hf hj
  match j with
  | ⟨0, _⟩ => exact (tile0_apply v231 _ r c).trans (congrArg act (sum_lead_panel v231 w1 _ 0 _ _ r c))
  | ⟨1, _⟩ => exact (tile1_apply v231 _ r c).trans (congrArg act (sum_lead_panel v231 w1 _ 512 _ _ r c))
  | ⟨2, _⟩ => exact (tile2_apply v231 _ r c).trans (congrArg act (sum_lead_panel v231 w1 _ 1024 _ _ r c))
  | ⟨3, _⟩ => exact (tile3_apply v231 _ r c).trans (congrArg act (sum_lead_panel v231 w1 _ 1536 _ _ r c))
  | ⟨4, _⟩ => exact (tile4_apply v231 _ r c).trans (congrArg act (sum_lead_panel v231 w1 _ 2048 _ _ r c))
  | ⟨5, _⟩ => exact (tile5_apply v231 _ r c).trans (congrArg act (sum_lead_panel v231 w1 _ 2560 _ _ r c))

/-- The middle value read at natural-number coordinates. -/
theorem nat2_midW (v231 : FVec Ideal S256x768 .bf16) (w1 : S768x3072.Idx → EReal) (r : Fin 256) {f : ℕ} (hf : f < 3072) :
    nat2 (midW v231 w1) r.val f
      = act (∑ e' ∈ Finset.range (128 * (f / 512 + 1)), nat2 v231 r.val e' * nat2 w1 e' f) :=
  (nat2_of_lt (midW v231 w1) r.isLt hf).trans (midW_apply v231 w1 ⟨r.val, r.isLt⟩ ⟨f, hf⟩)

end Cert.TriMlp.KMm

end
-- ==== Proof.KMm2.lean ====
/-
  The second matrix-product stage of the body, read at an index, at the ideal values.

  Tile j (j = 0 … 5) multiplies the leading 512 (j + 1) columns of the 256 x 3072 middle value with a
  512 (j + 1) x 128 panel.  Over the panels of one 3072 x 768 matrix `w2` whose corners are (0, 128 j), the six tiles laid
  side by side are a 256 x 768 matrix whose entry (r, e), with e = 128 j + c, is the sum over f < 512 (e / 128 + 1) of the
  middle value at (r, f) times `w2` at (f, e).
-/
import proofs.«121291_j13245679140988_2_alg».proof.Proof.KMmBase

noncomputable section

namespace Cert.TriMlp.KMm

open Idealize.ShloMosaic Idealize.ShloMosaic.ValueIdx Cert.KernelIdeal Cert.KernelIdeal.Gen Cert.TriMlp

/-- A product of the leading K columns of the middle value with a K x 128 matrix, at (r, c). -/
theorem prod_apply {K : ℕ} (D : DotDims ⟨2, ![256, K]⟩ ⟨2, ![K, 128]⟩ S256x128) (hD : D = DotDims.plain 256 K 128)
    (hK : K ≤ 3072) (hs : S256x3072.Slices ![0, 0] ⟨2, ![256, K]⟩)
    (hc : (⟨2, ![K, 128]⟩ : Shape).ShapeCasts ⟨2, ![K, 128]⟩)
    (v279 : FVec Ideal S256x3072 .bf16) (p : Vec Ideal ⟨2, ![K, 128]⟩ .bf16) (r : Fin 256) (c : Fin 128) :
    (matmul D none (extractStridedSlice ⟨2, ![256, K]⟩ ![0, 0] v279 hs) (shapeCast ⟨2, ![K, 128]⟩ p hc : FVec Ideal ⟨2, ![K, 128]⟩ .bf16)
        (constant S256x128 .f32 0x00000000#32) : FVec Ideal S256x128 .f32) (ix2 r c)
      = ∑ k : Fin K, v279 (ix2 r (Fin.castLE hK k)) * p (ix2 k c) := by
  refine (matmul_apply_of_plain D hD none _ _ r c).trans (Finset.sum_congr rfl fun k _ => ?_)
  rw [shapeCast_self, lead_apply v279 hs hK r k]

/-- The product of the whole middle value with a 3072 x 128 matrix, at (r, c). -/
theorem prod5_apply (v279 : FVec Ideal S256x3072 .bf16) (p : Vec Ideal S3072x128 .bf16) (r : Fin 256) (c : Fin 128) :
    (matmul dot_S256x3072_S3072x128_S256x128_1_0_0_1_n_n none v279 (shapeCast S3072x128 p shapeCasts_S3072x128_S3072x128 : FVec Ideal S3072x128 .bf16)
        (constant S256x128 .f32 0x00000000#32) : FVec Ideal S256x128 .f32) (ix2 r c)
      = ∑ k : Fin 3072, v279 (ix2 r (Fin.castLE (Nat.le_refl 3072) k)) * p (ix2 k c) := by
  refine (matmul_apply_of_plain _ rfl none _ _ r c).trans (Finset.sum_congr rfl fun k _ => ?_)
  rw [shapeCast_self]
  rfl

/-- The second stage over a 256 x 3072 value and six panels: six products laid side by side. -/
def stage2 (v279 : FVec Ideal S256x3072 .bf16) (l281 : Vec Ideal S512x128 .bf16) (l285 : Vec Ideal S1024x128 .bf16)
    (l289 : Vec Ideal S1536x128 .bf16) (l293 : Vec Ideal S2048x128 .bf16) (l297 : Vec Ideal S2560x128 .bf16)
    (l300 : Vec Ideal S3072x128 .bf16) : FVec Ideal S256x768 .f32 :=
  concatenate S256x768 1 [
    ⟨S256x128, matmul dot_S256x512_S512x128_S256x128_1_0_0_1_n_n none (extractStridedSlice S256x512 ![0, 0] v279 slices_S256x3072_o0_0_S256x512)
      (shapeCast S512x128 l281 shapeCasts_S512x128_S512x128 : FVec Ideal S512x128 .bf16) (constant S256x128 .f32 0x00000000#32)⟩,
    ⟨S256x128, matmul dot_S256x1024_S1024x128_S256x128_1_0_0_1_n_n none (extractStridedSlice S256x1024 ![0, 0] v279 slices_S256x3072_o0_0_S256x1024)
      (shapeCast S1024x128 l285 shapeCasts_S1024x128_S1024x128 : FVec Ideal S1024x128 .bf16) (constant S256x128 .f32 0x00000000#32)⟩,
    ⟨S256x128, matmul dot_S256x1536_S1536x128_S256x128_1_0_0_1_n_n none (extractStridedSlice S256x1536 ![0, 0] v279 slices_S256x3072_o0_0_S256x1536)
      (shapeCast S1536x128 l289 shapeCasts_S1536x128_S1536x128 : FVec Ideal S1536x128 .bf16) (constant S256x128 .f32 0x00000000#32)⟩,
    ⟨S256x128, matmul dot_S256x2048_S2048x128_S256x128_1_0_0_1_n_n none (extractStridedSlice S256x2048 ![0, 0] v279 slices_S256x3072_o0_0_S256x2048)
      (shapeCast S2048x128 l293 shapeCasts_S2048x128_S2048x128 : FVec Ideal S2048x128 .bf16) (constant S256x128 .f32 0x00000000#32)⟩,
    ⟨S256x128, matmul dot_S256x2560_S2560x128_S256x128_1_0_0_1_n_n none (extractStridedSlice S256x2560 ![0, 0] v279 slices_S256x3072_o0_0_S256x2560)
      (shapeCast S2560x128 l297 shapeCasts_S2560x128_S2560x128 : FVec Ideal S2560x128 .bf16) (constant S256x128 .f32 0x00000000#32)⟩,
    ⟨S256x128, matmul dot_S256x3072_S3072x128_S256x128_1_0_0_1_n_n none v279
      (shapeCast S3072x128 l300 shapeCasts_S3072x128_S3072x128 : FVec Ideal S3072x128 .bf16) (constant S256x128 .f32 0x00000000#32)⟩]
    concatenates_S256x128_S256x128_S256x128_S256x128_S256x128_S256x128_S256x768_d1

/-- The same over the six panels of one 3072 x 768 matrix: panel j has 512 (j + 1) rows and its corner at (0, 128 j). -/
def stage2W (v279 : FVec Ideal S256x3072 .bf16) (w2 : S3072x768.Idx → EReal) : FVec Ideal S256x768 .f32 :=
  stage2 v279 (KI.subBlk 0 0 (by norm_num) (by norm_num) w2) (KI.subBlk 0 128 (by norm_num) (by norm_num) w2)
    (KI.subBlk 0 256 (by norm_num) (by norm_num) w2) (KI.subBlk 0 384 (by norm_num) (by norm_num) w2)
    (KI.subBlk 0 512 (by norm_num) (by norm_num) w2) (KI.subBlk 0 640 (by norm_num) (by norm_num) w2)

/-- Entry (r, e) of the second stage: column e lies in tile e / 128, whose contraction runs over the leading
    512 (e / 128 + 1) columns of the middle value. -/
theorem stage2W_apply (v279 : FVec Ideal S256x3072 .bf16) (w2 : S3072x768.Idx → EReal) (r : Fin 256) (e : Fin 768) :
    stage2W v279 w2 (ix2 r e)
      = ∑ f ∈ Finset.range (512 * (e.val / 128 + 1)), nat2 v279 r.val f * nat2 w2 f e.val := by
  obtain ⟨j, c, he⟩ : ∃ (j : Fin 6) (c : Fin 128), e.val = 128 * j.val + c.val :=
    ⟨⟨e.val / 128, by have := e.isLt; omega⟩, ⟨e.val % 128, Nat.mod_lt _ (by norm_num)⟩, by
      show e.val = 128 * (e.val / 128) + e.val % 128
      omega⟩
  have hj : e.val / 128 = j.val := by have := c.isLt; omega
  rw [hj, he]
  unfold stage2W stage2
  refine (concat6_apply _ _ _ _ _ _ _ r j c e he).trans ?_
  clear he hj
  match j with
  | ⟨0, _⟩ => exact (prod_apply _ rfl (by norm_num) _ _ v279 _ r c).trans (sum_lead_panel v279 w2 _ 0 _ _ r c)
  | ⟨1, _⟩ => exact (prod_apply _ rfl (by norm_num) _ _ v279 _ r c).trans (sum_lead_panel v279 w2 _ 128 _ _ r c)
  | ⟨2, _⟩ => exact (prod_apply _ rfl (by norm_num) _ _ v279 _ r c).trans (sum_lead_panel v279 w2 _ 256 _ _ r c)
  | ⟨3, _⟩ => exact (prod_apply _ rfl (by norm_num) _ _ v279 _ r c).trans (sum_lead_panel v279 w2 _ 384 _ _ r c)
  | ⟨4, _⟩ => exact (prod_apply _ rfl (by norm_num) _ _ v279 _ r c).trans (sum_lead_panel v279 w2 _ 512 _ _ r c)
  | ⟨5, _⟩ => exact (prod5_apply v279 _ r c).trans (sum_lead_panel v279 w2 _ 640 _ _ r c)

end Cert.TriMlp.KMm

end
-- ==== Proof.KMm.lean ====
/-
  The first 768 columns of the block the body stores, read at an index, at the ideal values.

  Over the six panels of a 768 x 3072 matrix `w1` (corner of panel j at (0, 512 j), 128 (j + 1) rows) and the six
  panels of a 3072 x 768 matrix `w2` (corner of panel j at (0, 128 j), 512 (j + 1) rows), entry (r, e) is the sum over
  f < 512 (e / 128 + 1) of `act` of the first product at (r, f) — itself a sum over e' < 128 (f / 512 + 1) — times
  `w2` at (f, e): both contractions stop where the panels stop.
-/
import proofs.«121291_j13245679140988_2_alg».proof.Proof.KMm1
import proofs.«121291_j13245679140988_2_alg».proof.Proof.KMm2

noncomputable section

namespace Cert.TriMlp.KMm

open Idealize.ShloMosaic Idealize.ShloMosaic.ValueIdx Cert.KernelIdeal Cert.KernelIdeal.Gen Cert.TriMlp

/-- The stored columns are the second stage over the six first-stage tiles laid side by side. -/
theorem kOutOf_eq (v231 : FVec Ideal S256x768 .bf16) (l233 : Vec Ideal S128x512 .bf16) (l241 : Vec Ideal S256x512 .bf16)
    (l249 : Vec Ideal S384x512 .bf16) (l257 : Vec Ideal S512x512 .bf16) (l265 : Vec Ideal S640x512 .bf16)
    (l272 : Vec Ideal S768x512 .bf16) (l281 : Vec Ideal S512x128 .bf16) (l285 : Vec Ideal S1024x128 .bf16)
    (l289 : Vec Ideal S1536x128 .bf16) (l293 : Vec Ideal S2048x128 .bf16) (l297 : Vec Ideal S2560x128 .bf16)
    (l300 : Vec Ideal S3072x128 .bf16) :
    KI.kOutOf (F := Ideal) v231 l233 l241 l249 l257 l265 l272 l281 l285 l289 l293 l297 l300
      = stage2 (mid v231 l233 l241 l249 l257 l265 l272) l281 l285 l289 l293 l297 l300 := rfl

theorem kOutOf_apply (v231 : FVec Ideal S256x768 .bf16) (w1 : S768x3072.Idx → EReal) (w2 : S3072x768.Idx → EReal)
    (r : Fin 256) (e : Fin 768) :
    KI.kOutOf (F := Ideal) v231
        (KI.subBlk 0 0 (by norm_num) (by norm_num) w1) (KI.subBlk 0 512 (by norm_num) (by norm_num) w1)
        (KI.subBlk 0 1024 (by norm_num) (by norm_num) w1) (KI.subBlk 0 1536 (by norm_num) (by norm_num) w1)
        (KI.subBlk 0 2048 (by norm_num) (by norm_num) w1) (KI.subBlk 0 2560 (by norm_num) (by norm_num) w1)
        (KI.subBlk 0 0 (by norm_num) (by norm_num) w2) (KI.subBlk 0 128 (by norm_num) (by norm_num) w2)
        (KI.subBlk 0 256 (by norm_num) (by norm_num) w2) (KI.subBlk 0 384 (by norm_num) (by norm_num) w2)
        (KI.subBlk 0 512 (by norm_num) (by norm_num) w2) (KI.subBlk 0 640 (by norm_num) (by norm_num) w2)
        (ix2 r e)
      = ∑ f ∈ Finset.range (512 * (e.val / 128 + 1)),
          act (∑ e' ∈ Finset.range (128 * (f / 512 + 1)), nat2 v231 r.val e' * nat2 w1 e' f) * nat2 w2 f e.val := by
  refine (congrFun (kOutOf_eq v231 _ _ _ _ _ _ _ _ _ _ _ _) (ix2 r e)).trans ?_
  refine (stage2W_apply (midW v231 w1) w2 r e).trans (Finset.sum_congr rfl fun f hf => ?_)
  have hf' : f < 3072 := by
    have h1 := Finset.mem_range.mp hf
    have h2 := e.isLt
    omega
  rw [nat2_midW v231 w1 r hf']

end Cert.TriMlp.KMm

end
-- ==== Proof.KRow.lean ====
/-
  One row of the kernel body's stored block is the truncated row form of the specification.

  The stored block's first 768 columns are computed from the normalized block and twelve weight panels by two
  rounds of panel products, each stopped where the panels end.  The normalized block's row r is the normalized
  row of the loaded block's row r, so row r of the stored block at column e is the truncated row form of that
  row, with the two weight matrices read at natural-number coordinates.
-/
import proofs.«121291_j13245679140988_2_alg».proof.Proof.KHn
import proofs.«121291_j13245679140988_2_alg».proof.Proof.KMm
import proofs.«121291_j13245679140988_2_alg».proof.Proof.KTerm
import proofs.«121291_j13245679140988_2_alg».proof.Proof.Spec

noncomputable section

namespace Cert.TriMlp.KRow

open Idealize.ShloMosaic Idealize.ShloMosaic.ValueIdx Cert.KernelIdeal Cert.KernelIdeal.Gen Cert.TriMlp

/-- Row r of the kernel body's stored block, at output column e < 768, is the truncated row form of row r of the
    loaded input block with the two weight matrices read at natural-number coordinates. -/
theorem kOut_row (x : Vec Ideal S256x768 .f32) (w1 : S768x3072.Idx → EReal) (w2 : S3072x768.Idx → EReal)
    (r : Fin 256) (e : Fin 768) :
    KI.kOut (F := Ideal) x
        (KI.subBlk 0 0 (by norm_num) (by norm_num) w1) (KI.subBlk 0 512 (by norm_num) (by norm_num) w1)
        (KI.subBlk 0 1024 (by norm_num) (by norm_num) w1) (KI.subBlk 0 1536 (by norm_num) (by norm_num) w1)
        (KI.subBlk 0 2048 (by norm_num) (by norm_num) w1) (KI.subBlk 0 2560 (by norm_num) (by norm_num) w1)
        (KI.subBlk 0 0 (by norm_num) (by norm_num) w2) (KI.subBlk 0 128 (by norm_num) (by norm_num) w2)
        (KI.subBlk 0 256 (by norm_num) (by norm_num) w2) (KI.subBlk 0 384 (by norm_num) (by norm_num) w2)
        (KI.subBlk 0 512 (by norm_num) (by norm_num) w2) (KI.subBlk 0 640 (by norm_num) (by norm_num) w2) (ix2 r e)
      = yTrunc (KHn.rowOf x r) (fun e' f => nat2 w1 e' f) (fun f e'' => nat2 w2 f e'') e.val := by
  unfold KI.kOut
  refine (KMm.kOutOf_apply (KI.kHn (F := Ideal) x) w1 w2 r e).trans ?_
  unfold yTrunc
  rw [if_pos e.isLt]
  refine Finset.sum_congr rfl fun f hf => ?_
  have hf' : f < 3072 := by have := Finset.mem_range.mp hf; have := e.isLt; omega
  congr 2
  unfold h1Trunc
  refine Finset.sum_congr rfl fun e' he' => ?_
  have he'' : e' < 768 := by have := Finset.mem_range.mp he'; omega
  rw [nat2_of_lt (KI.kHn (F := Ideal) x) r.isLt he'', KHn.kHn_apply x r ⟨e', he''⟩]

end Cert.TriMlp.KRow

end
-- ==== Proof.Alg.lean ====
/-
  Stopping the two contractions early changes nothing.

  If the first weight vanishes at (input e, middle f) whenever f < 3072 and e ≥ 128 (f / 512 + 1), and the second
  at (middle f, output e) whenever e < 768 and f ≥ 512 (e / 128 + 1), and everywhere in output columns e ≥ 768, then
  every term the truncated sums leave out is a product with zero, which on the extended reals is zero whatever the
  other factor is.  A normalized entry in a column below 768 depends only on the row's columns below 768 (its group
  of 64 ends at or before column 767), so the row may be replaced by any row agreeing with it there.
-/
import proofs.«121291_j13245679140988_2_alg».proof.Proof.Spec

noncomputable section

namespace Cert.TriMlp

/-- A normalized entry in a column below 768 sees only the columns below 768. -/
theorem hnRow_congr (ρ ρ' : ℕ → EReal) (hρ : ∀ c, c < 768 → ρ c = ρ' c) (e : ℕ) (he : e < 768) :
    hnRow ρ e = hnRow ρ' e := by
  unfold hnRow
  have hg : grp ρ e = grp ρ' e := by
    funext d
    unfold grp
    exact hρ _ (by have := d.isLt; omega)
  rw [hg]

/-- The first product at a middle column below 3072: the inputs from 128 (f / 512 + 1) on meet a zero weight. -/
theorem h1Full_eq_h1Trunc (ρ ρ' : ℕ → EReal) (u1 : ℕ → ℕ → EReal) (hρ : ∀ c, c < 768 → ρ c = ρ' c)
    (h1 : ∀ e f, f < 3072 → 128 * (f / 512 + 1) ≤ e → u1 e f = 0) (f : ℕ) (hf : f < 3072) :
    h1Full ρ u1 f = h1Trunc ρ' u1 f := by
  unfold h1Full h1Trunc
  have hsub : Finset.range (128 * (f / 512 + 1)) ⊆ Finset.range 1024 := by
    intro x hx
    have := Finset.mem_range.1 hx
    exact Finset.mem_range.2 (by omega)
  rw [← Finset.sum_subset hsub (fun x _ hx => by
    have hx' : 128 * (f / 512 + 1) ≤ x := by
      by_contra hc
      exact hx (Finset.mem_range.2 (by omega))
    rw [h1 x f hf hx', mul_zero])]
  refine Finset.sum_congr rfl fun x hx => ?_
  have := Finset.mem_range.1 hx
  rw [hnRow_congr ρ ρ' hρ x (by omega)]

/-- The whole row: full sums against early-stopped sums. -/
theorem yFull_eq_yTrunc (ρ ρ' : ℕ → EReal) (u1 u2 : ℕ → ℕ → EReal) (hρ : ∀ c, c < 768 → ρ c = ρ' c)
    (h1 : ∀ e f, f < 3072 → 128 * (f / 512 + 1) ≤ e → u1 e f = 0)
    (h2 : ∀ f e, e < 768 → 512 * (e / 128 + 1) ≤ f → u2 f e = 0)
    (h3 : ∀ f e, 768 ≤ e → u2 f e = 0) (e : ℕ) :
    yFull ρ u1 u2 e = yTrunc ρ' u1 u2 e := by
  unfold yFull yTrunc
  by_cases he : e < 768
  · rw [if_pos he]
    have hsub : Finset.range (512 * (e / 128 + 1)) ⊆ Finset.range 4096 := by
      intro x hx
      have := Finset.mem_range.1 hx
      exact Finset.mem_range.2 (by omega)
    rw [← Finset.sum_subset hsub (fun x _ hx => by
      have hx' : 512 * (e / 128 + 1) ≤ x := by
        by_contra hc
        exact hx (Finset.mem_range.2 (by omega))
      rw [h2 x e he hx', mul_zero])]
    refine Finset.sum_congr rfl fun x hx => ?_
    have := Finset.mem_range.1 hx
    rw [h1Full_eq_h1Trunc ρ ρ' u1 hρ h1 x (by omega)]
  · rw [if_neg he]
    exact Finset.sum_eq_zero fun x _ => by rw [h3 x e (by omega), mul_zero]

end Cert.TriMlp

end
-- ==== Proof.AlgCongr.lean ====
/-
  The truncated row form reads its two weight functions only on a rectangle.

  The outer sum stops at 512 (e / 128 + 1) ≤ 3072 for an output column e < 768, and the inner sum at
  128 (f / 512 + 1) ≤ 768 for a middle column f < 3072; output columns from 768 on are zero whatever the weights.
  So two pairs of weight functions that agree at inputs below 768 and middle columns below 3072 give the same row.
-/
import proofs.«121291_j13245679140988_2_alg».proof.Proof.Spec

noncomputable section

namespace Cert.TriMlp

open Idealize.ShloMosaic Idealize.ShloMosaic.ValueIdx

theorem yTrunc_congr (ρ : ℕ → EReal) (u1 u1' u2 u2' : ℕ → ℕ → EReal)
    (h1 : ∀ e f, e < 768 → f < 3072 → u1 e f = u1' e f) (h2 : ∀ f e, f < 3072 → e < 768 → u2 f e = u2' f e) (e : ℕ) :
    yTrunc ρ u1 u2 e = yTrunc ρ u1' u2' e := by
  unfold yTrunc
  by_cases he : e < 768
  · rw [if_pos he, if_pos he]
    refine Finset.sum_congr rfl fun f hf => ?_
    have hf' : f < 3072 := by have := Finset.mem_range.mp hf; omega
    rw [h2 f e hf' he]
    congr 2
    unfold h1Trunc
    refine Finset.sum_congr rfl fun e' he' => ?_
    have he'' : e' < 768 := by have := Finset.mem_range.mp he'; omega
    rw [h1 e' f he'' hf']
  · rw [if_neg he, if_neg he]

end Cert.TriMlp

end
-- ==== Proof.MaskZero.lean ====
/-
  Where the two 0/1 patterns vanish.

  Each pattern's entry is a one-bit word converted to a number: the conjunction of three signed comparisons of
  32-bit words built from the row and column numbers.  Every number involved is below 2^31, so each word's signed
  reading is the natural number itself and each comparison is the comparison of natural numbers.  The first pattern's
  entry at (f, e) is therefore the truth value of 4 e ≤ f, e < 768 and f < 3072, and the second's at (e, f) that of
  f ≤ 4 e, f < 3072 and e < 768; where the condition fails the entry is the number zero.
-/
import proofs.«121291_j13245679140988_2_alg».proof.Proof.MaskDefs
import Idealize.ShloMosaic.Lib.ValueIdx
import Idealize.ShloMosaic.Lib.Pipeline.Value
import Idealize.ShloMosaic.PureOps.Ideal.Laws

noncomputable section

namespace Cert.TriMlp.MaskZero

open Idealize.ShloMosaic Idealize.ShloMosaic.ValueIdx Cert.ReferenceIdeal Cert.TriMlp

/-- The signed reading of a 32-bit word made from a natural number below 2^31 is that number. -/
theorem toInt_ofNat_small (a : ℕ) (ha : a < 2 ^ 31) : (BitVec.ofNat 32 a).toInt = (a : ℤ) := by
  have hn : (BitVec.ofNat 32 a).toNat = a := by
    rw [BitVec.toNat_ofNat]; exact Nat.mod_eq_of_lt (by omega)
  rw [BitVec.toInt_eq_toNat_of_lt (by rw [hn]; omega), hn]

/-- Signed "less than" of two such words is "less than" of the numbers. -/
theorem cmpi_slt_small (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, toInt_ofNat_small a ha, toInt_ofNat_small b hb]
  congr 1
  exact decide_eq_decide.mpr Int.ofNat_lt

/-- Signed "at most" of two such words is "at most" of the numbers. -/
theorem cmpi_sle_small (a b : ℕ) (ha : a < 2 ^ 31) (hb : b < 2 ^ 31) :
    IntOp.cmpi .sle (BitVec.ofNat 32 a) (BitVec.ofNat 32 b) = BitVec.ofBool (decide (a ≤ b)) := by
  show BitVec.ofBool ((BitVec.ofNat 32 a).sle (BitVec.ofNat 32 b)) = _
  rw [BitVec.sle_eq_decide, toInt_ofNat_small a ha, toInt_ofNat_small b hb]
  congr 1
  exact decide_eq_decide.mpr Int.ofNat_le

/-- The product of two words made from natural numbers is the word made from the product. -/
theorem muli_ofNat (a b : ℕ) : IntOp.muli (BitVec.ofNat 32 a) (BitVec.ofNat 32 b) = BitVec.ofNat 32 (a * b) :=
  (BitVec.ofNat_mul a b).symm

/-- A one-bit word that is the truth value of a false statement converts to the number zero. -/
theorem uitofp_ofBool_false : FloatOps.uitofp (F := Ideal) .f32 (BitVec.ofBool false) = 0 := by
  show (((BitVec.ofBool false).toNat : ℝ) : EReal) = 0
  simp

/-- The first pattern's entry as the converted conjunction of three comparisons of natural numbers. -/
theorem M1_word (f : Fin 4096) (e : Fin 1024) :
    M1 (ix2 f e) = FloatOps.uitofp (F := Ideal) .f32
      (BitVec.ofBool (decide (e.val * 4096 ≤ f.val * 1024) && decide (e.val < 768) && decide (f.val < 3072))) := by
  have hf := f.isLt
  have he := e.isLt
  unfold M1
  rw [Read.val_main_v19_apply, Read.val_main_v18_apply, Read.val_main_v17_apply, Read.val_main_v16_apply,
    Read.val_main_v15_apply, Read.val_main_c_2_apply, Read.val_main_v1_apply, Read.val_main_v0_apply,
    Read.val_main_v14_apply, Read.val_main_v13_apply, Read.val_main_v12_apply, Read.val_main_v11_apply,
    Read.val_main_c_1_apply, Read.val_main_v3_apply, Read.val_main_v2_apply, Read.val_main_v10_apply,
    Read.val_main_v9_apply, Read.val_main_v8_apply, Read.val_main_v7_apply, Read.val_main_v6_apply,
    Read.val_main_c_0_apply, Read.val_main_v5_apply, Read.val_main_v4_apply, Read.val_main_c_apply,
    Read.val_main_v3_apply, Read.val_main_v2_apply, Read.val_main_v1_apply, Read.val_main_v0_apply]
  show FloatOps.uitofp (F := Ideal) .f32
      (IntOp.andi (IntOp.andi (IntOp.cmpi .sle (IntOp.muli (BitVec.ofNat 32 e.val) (BitVec.ofNat 32 4096))
          (IntOp.muli (BitVec.ofNat 32 f.val) (BitVec.ofNat 32 1024)))
        (IntOp.cmpi .slt (BitVec.ofNat 32 e.val) (BitVec.ofNat 32 768)))
        (IntOp.cmpi .slt (BitVec.ofNat 32 f.val) (BitVec.ofNat 32 3072))) = _
  rw [muli_ofNat, muli_ofNat, cmpi_sle_small _ _ (by omega) (by omega), cmpi_slt_small _ _ (by omega) (by omega),
    cmpi_slt_small _ _ (by omega) (by omega)]
  show FloatOps.uitofp (F := Ideal) .f32 ((BitVec.ofBool _ &&& BitVec.ofBool _) &&& BitVec.ofBool _) = _
  rw [BitVec.ofBool_and_ofBool, BitVec.ofBool_and_ofBool]

/-- The second pattern's entry as the converted conjunction of three comparisons of natural numbers. -/
theorem M2_word (e : Fin 1024) (f : Fin 4096) :
    M2 (ix2 e f) = FloatOps.uitofp (F := Ideal) .f32
      (BitVec.ofBool (decide (f.val * 1024 ≤ e.val * 4096) && decide (f.val < 3072) && decide (e.val < 768))) := by
  have hf := f.isLt
  have he := e.isLt
  unfold M2
  rw [Read.val_main_v39_apply, Read.val_main_v38_apply, Read.val_main_v37_apply, Read.val_main_v36_apply,
    Read.val_main_v35_apply, Read.val_main_c_6_apply, Read.val_main_v21_apply, Read.val_main_v20_apply,
    Read.val_main_v34_apply, Read.val_main_v33_apply, Read.val_main_v32_apply, Read.val_main_v31_apply,
    Read.val_main_c_5_apply, Read.val_main_v23_apply, Read.val_main_v22_apply, Read.val_main_v30_apply,
    Read.val_main_v29_apply, Read.val_main_v28_apply, Read.val_main_v27_apply, Read.val_main_v26_apply,
    Read.val_main_c_4_apply, Read.val_main_v25_apply, Read.val_main_v24_apply, Read.val_main_c_3_apply,
    Read.val_main_v23_apply, Read.val_main_v22_apply, Read.val_main_v21_apply, Read.val_main_v20_apply]
  show FloatOps.uitofp (F := Ideal) .f32
      (IntOp.andi (IntOp.andi (IntOp.cmpi .sle (IntOp.muli (BitVec.ofNat 32 f.val) (BitVec.ofNat 32 1024))
          (IntOp.muli (BitVec.ofNat 32 e.val) (BitVec.ofNat 32 4096)))
        (IntOp.cmpi .slt (BitVec.ofNat 32 f.val) (BitVec.ofNat 32 3072)))
        (IntOp.cmpi .slt (BitVec.ofNat 32 e.val) (BitVec.ofNat 32 768))) = _
  rw [muli_ofNat, muli_ofNat, cmpi_sle_small _ _ (by omega) (by omega), cmpi_slt_small _ _ (by omega) (by omega),
    cmpi_slt_small _ _ (by omega) (by omega)]
  show FloatOps.uitofp (F := Ideal) .f32 ((BitVec.ofBool _ &&& BitVec.ofBool _) &&& BitVec.ofBool _) = _
  rw [BitVec.ofBool_and_ofBool, BitVec.ofBool_and_ofBool]

/-- The first pattern is zero at (f, e) unless 4 e ≤ f, e < 768 and f < 3072. -/
theorem M1_zero (f e : ℕ) (hf : f < 4096) (he : e < 1024) (h : ¬(4 * e ≤ f ∧ e < 768 ∧ f < 3072)) : nat2 M1 f e = 0 := by
  rw [nat2_of_lt M1 hf he, M1_word]
  have hb : (decide (e * 4096 ≤ f * 1024) && decide (e < 768) && decide (f < 3072)) = false := by
    rw [Bool.eq_false_iff]; intro hc
    simp only [Bool.and_eq_true, decide_eq_true_eq] at hc
    exact h ⟨by omega, hc.1.2, hc.2⟩
  show FloatOps.uitofp (F := Ideal) .f32 (BitVec.ofBool (decide (e * 4096 ≤ f * 1024) && decide (e < 768) && decide (f < 3072))) = 0
  rw [hb]; exact uitofp_ofBool_false

/-- The second pattern is zero at (e, f) unless f ≤ 4 e, f < 3072 and e < 768. -/
theorem M2_zero (e f : ℕ) (he : e < 1024) (hf : f < 4096) (h : ¬(f ≤ 4 * e ∧ f < 3072 ∧ e < 768)) : nat2 M2 e f = 0 := by
  rw [nat2_of_lt M2 he hf, M2_word]
  have hb : (decide (f * 1024 ≤ e * 4096) && decide (f < 3072) && decide (e < 768)) = false := by
    rw [Bool.eq_false_iff]; intro hc
    simp only [Bool.and_eq_true, decide_eq_true_eq] at hc
    exact h ⟨by omega, hc.1.2, hc.2⟩
  show FloatOps.uitofp (F := Ideal) .f32 (BitVec.ofBool (decide (f * 1024 ≤ e * 4096) && decide (f < 3072) && decide (e < 768))) = 0
  rw [hb]; exact uitofp_ofBool_false

end Cert.TriMlp.MaskZero

end
-- ==== Proof.RefG.lean ====
/-
  The reference program's result, read at an index, is the specification's full row form.

  The reference regroups each row of 1024 columns into 16 groups of 64, subtracts each group's mean, scales by the
  reciprocal square root of the group's variance plus a small constant, and regroups back: column k of the
  normalized row is place k % 64 of group k / 64.  It then multiplies each weight matrix entry by entry with its
  0/1 pattern and takes two full contractions, over all 1024 normalized columns and over all 4096 middle columns,
  with a clamp below at zero and a square in between.  Read one operation at a time, every stage at an index is
  the corresponding term of the specification.
-/
import proofs.«121291_j13245679140988_2_alg».proof.Proof.MaskDefs
import Idealize.ShloMosaic.Lib.ValueIdx
import Idealize.ShloMosaic.Lib.Pipeline.Value
import Idealize.ShloMosaic.PureOps.Ideal.Laws

noncomputable section

namespace Cert.TriMlp

open Idealize.ShloMosaic Idealize.ShloMosaic.ValueIdx

/-- The specification as one function of the three arguments: entry (b, s, e) is the full row form of row (b, s) at
    output column e. -/
def G (X : (⟨3, ![4, 4096, 1024]⟩ : Shape).Idx → EReal) (Wfc : (⟨2, ![4096, 1024]⟩ : Shape).Idx → EReal)
    (Wpr : (⟨2, ![1024, 4096]⟩ : Shape).Idx → EReal) : (⟨3, ![4, 4096, 1024]⟩ : Shape).Idx → EReal :=
  fun i => yFull (rowX X (i 0) (i 1)) (u1of Wfc) (u2of Wpr) (i 2).val

end Cert.TriMlp

namespace Cert.TriMlp.RefG

open Idealize.ShloMosaic Idealize.ShloMosaic.ValueIdx Cert.ReferenceIdeal Cert.TriMlp

/-- The 64 entries of group `h` of row (b, s). -/
def grpX (X : (⟨3, ![4, 4096, 1024]⟩ : Shape).Idx → EReal) (b : Fin 4) (s : Fin 4096) (h : Fin 16) : Fin 64 → EReal :=
  fun d => X (ix3 b s ⟨64 * h.val + d.val, by have := h.isLt; have := d.isLt; omega⟩)

/-- The input regrouped: entry (b, s, h, d) is entry (b, s, 64 h + d). -/
theorem v40_at (X : (⟨3, ![4, 4096, 1024]⟩ : Shape).Idx → EReal) (b : Fin 4) (s : Fin 4096) (h : Fin 16) (d : Fin 64) :
    Read.val_main_v40 (F := Ideal) X (ix4 b s h d) = grpX X b s h d := by
  rw [Read.val_main_v40_apply]
  unfold grpX
  refine congrArg X (funext fun a => Fin.ext ?_)
  have := b.isLt; have := s.isLt; have := h.isLt; have := d.isLt
  match a with
  | ⟨0, _⟩ => show (((b.val * 4096 + s.val) * 16 + h.val) * 64 + d.val) / 4194304 = b.val; omega
  | ⟨1, _⟩ => show (((b.val * 4096 + s.val) * 16 + h.val) * 64 + d.val) / 1024 % 4096 = s.val; omega
  | ⟨2, _⟩ => show (((b.val * 4096 + s.val) * 16 + h.val) * 64 + d.val) % 1024 = 64 * h.val + d.val; omega

/-- The group's mean, kept as a unit axis. -/
theorem v44_at (X : (⟨3, ![4, 4096, 1024]⟩ : Shape).Idx → EReal) (b : Fin 4) (s : Fin 4096) (h : Fin 16) (u : Fin 1) :
    Read.val_main_v44 (F := Ideal) X (ix4 b s h u) = gMean (grpX X b s h) := by
  rw [Read.val_main_v44_apply, Read.val_main_v42_apply, Read.val_main_v41_apply, Read.val_main_v43_apply,
    Read.val_main_cst_7_apply, Read.val_main_cst_apply]
  have hs : ∀ k : Fin 64, Read.val_main_v40 (F := Ideal) X (Read.idx_main_v41 (Read.idx_main_v42 (ix4 b s h u)) k)
      = grpX X b s h k := fun k => by
    rw [← v40_at]
    exact congrArg _ (funext fun a => Fin.ext (by match a with | ⟨0, _⟩ => rfl | ⟨1, _⟩ => rfl | ⟨2, _⟩ => rfl | ⟨3, _⟩ => rfl))
  simp only [hs]
  show Ideal.div (Ideal.ofBits .f32 0x00000000#32 + ∑ k : Fin 64, grpX X b s h k) (Ideal.ofBits .f32 0x42800000#32) = _
  rw [Ideal.ofBits_zero_f32, zero_add]
  rfl

/-- The group's variance, kept as a unit axis. -/
theorem v51_at (X : (⟨3, ![4, 4096, 1024]⟩ : Shape).Idx → EReal) (b : Fin 4) (s : Fin 4096) (h : Fin 16) (u : Fin 1) :
    Read.val_main_v51 (F := Ideal) X (ix4 b s h u) = gVar (grpX X b s h) := by
  rw [Read.val_main_v51_apply, Read.val_main_v49_apply, Read.val_main_v48_apply, Read.val_main_v50_apply,
    Read.val_main_cst_9_apply, Read.val_main_cst_8_apply]
  have hi : ∀ k : Fin 64, Read.idx_main_v48 (Read.idx_main_v49 (ix4 b s h u)) k = ix4 b s h k := fun k =>
    funext fun a => Fin.ext (by match a with | ⟨0, _⟩ => rfl | ⟨1, _⟩ => rfl | ⟨2, _⟩ => rfl | ⟨3, _⟩ => rfl)
  have h45 : ∀ k : Fin 64, Read.idx_main_v45 (ix4 b s h k) = ix4 b s h (0 : Fin 1) := fun k =>
    funext fun a => Fin.ext (by match a with | ⟨0, _⟩ => rfl | ⟨1, _⟩ => rfl | ⟨2, _⟩ => rfl | ⟨3, _⟩ => rfl)
  have hs : ∀ k : Fin 64, Read.val_main_v47 (F := Ideal) X (Read.idx_main_v48 (Read.idx_main_v49 (ix4 b s h u)) k)
      = (grpX X b s h k - gMean (grpX X b s h)) * (grpX X b s h k - gMean (grpX X b s h)) := fun k => by
    rw [hi k, Read.val_main_v47_apply, Read.val_main_v46_apply, Read.val_main_v45_apply, h45 k, v44_at, v40_at]
    rfl
  simp only [hs]
  show Ideal.div (Ideal.ofBits .f32 0x00000000#32 + ∑ k : Fin 64, _) (Ideal.ofBits .f32 0x42800000#32) = _
  rw [Ideal.ofBits_zero_f32, zero_add]
  rfl

/-- The normalized entry (b, s, h, d). -/
theorem v58_at (X : (⟨3, ![4, 4096, 1024]⟩ : Shape).Idx → EReal) (b : Fin 4) (s : Fin 4096) (h : Fin 16) (d : Fin 64) :
    Read.val_main_v58 (F := Ideal) X (ix4 b s h d) = gNorm (grpX X b s h) d := by
  have h52 : Read.idx_main_v52 (ix4 b s h d) = ix4 b s h (0 : Fin 1) :=
    funext fun a => Fin.ext (by match a with | ⟨0, _⟩ => rfl | ⟨1, _⟩ => rfl | ⟨2, _⟩ => rfl | ⟨3, _⟩ => rfl)
  have h57 : Read.idx_main_v57 (ix4 b s h d) = ix4 b s h (0 : Fin 1) :=
    funext fun a => Fin.ext (by match a with | ⟨0, _⟩ => rfl | ⟨1, _⟩ => rfl | ⟨2, _⟩ => rfl | ⟨3, _⟩ => rfl)
  rw [Read.val_main_v58_apply, Read.val_main_v53_apply, Read.val_main_v52_apply, h52, v44_at, v40_at,
    Read.val_main_v57_apply, h57, Read.val_main_v56_apply, Read.val_main_v55_apply, v51_at,
    Read.val_main_v54_apply, Read.val_main_cst_10_apply]
  rfl

/-- The normalized row read at column k: the reshape back to 1024 columns reads group k / 64 at place k % 64. -/
theorem v59_at (X : (⟨3, ![4, 4096, 1024]⟩ : Shape).Idx → EReal) (b : Fin 4) (s : Fin 4096) (k : Fin 1024) :
    Read.val_main_v59 (F := Ideal) X (ix3 b s k) = hnRow (rowX X b s) k.val := by
  have hk := k.isLt
  have hi : Read.idx_main_v59 (ix3 b s k)
      = ix4 b s (⟨k.val / 64, by omega⟩ : Fin 16) (⟨k.val % 64, Nat.mod_lt _ (by norm_num)⟩ : Fin 64) := by
    refine funext fun a => Fin.ext ?_
    have := b.isLt; have := s.isLt
    match a with
    | ⟨0, _⟩ => show ((b.val * 4096 + s.val) * 1024 + k.val) / 4194304 = b.val; omega
    | ⟨1, _⟩ => show ((b.val * 4096 + s.val) * 1024 + k.val) / 1024 % 4096 = s.val; omega
    | ⟨2, _⟩ => show ((b.val * 4096 + s.val) * 1024 + k.val) / 64 % 16 = k.val / 64; omega
    | ⟨3, _⟩ => show ((b.val * 4096 + s.val) * 1024 + k.val) % 64 = k.val % 64; omega
  rw [Read.val_main_v59_apply, hi, v58_at]
  unfold hnRow
  have hg : grp (rowX X b s) k.val = grpX X b s (⟨k.val / 64, by omega⟩ : Fin 16) := by
    funext d
    have := d.isLt
    unfold grp rowX grpX
    rw [dif_pos (by omega)]
  rw [hg]

/-- The first product: output f of row (b, s) is the full sum over the 1024 normalized columns. -/
theorem v61_at (X : (⟨3, ![4, 4096, 1024]⟩ : Shape).Idx → EReal) (Wfc : (⟨2, ![4096, 1024]⟩ : Shape).Idx → EReal)
    (b : Fin 4) (s : Fin 4096) (f : Fin 4096) :
    Read.val_main_v61 (F := Ideal) X Wfc (ix3 b s f) = h1Full (rowX X b s) (u1of Wfc) f.val := by
  rw [Read.val_main_v61_apply]
  have hs : ∀ k : Fin 1024, Read.val_main_v59 (F := Ideal) X (Read.lidx_main_v61 (ix3 b s f) k)
        * Read.val_main_v60 (F := Ideal) Wfc (Read.ridx_main_v61 (ix3 b s f) k)
      = hnRow (rowX X b s) k.val * u1of Wfc k.val f.val := fun k => by
    have hl : Read.lidx_main_v61 (ix3 b s f) k = ix3 b s k :=
      funext fun a => Fin.ext (by match a with | ⟨0, _⟩ => rfl | ⟨1, _⟩ => rfl | ⟨2, _⟩ => rfl)
    have hr : Read.ridx_main_v61 (ix3 b s f) k = ix2 f k :=
      funext fun a => Fin.ext (by match a with | ⟨0, _⟩ => rfl | ⟨1, _⟩ => rfl)
    rw [hl, hr, v59_at, Read.val_main_v60_apply]
    unfold u1of
    rw [nat2_ix2, nat2_ix2]
    rfl
  simp only [hs]
  unfold h1Full
  exact Fin.sum_univ_eq_sum_range (fun e => hnRow (rowX X b s) e * u1of Wfc e f.val) 1024

/-- Clamped below at zero and squared. -/
theorem v63_at (X : (⟨3, ![4, 4096, 1024]⟩ : Shape).Idx → EReal) (Wfc : (⟨2, ![4096, 1024]⟩ : Shape).Idx → EReal)
    (b : Fin 4) (s : Fin 4096) (f : Fin 4096) :
    Read.val_main_v63 (F := Ideal) X Wfc (ix3 b s f) = act (h1Full (rowX X b s) (u1of Wfc) f.val) := by
  rw [Read.val_main_v63_apply, Read.val_main_v62_apply, Read.val_main_call0_v0_apply, Read.val_main_call0_cst_apply,
    v61_at]
  show max _ (Ideal.ofBits .f32 0x00000000#32) * max _ (Ideal.ofBits .f32 0x00000000#32) = _
  rw [Ideal.ofBits_zero_f32]
  rfl

/-- The reference's result at (b, s, e) is the specification's full row form. -/
theorem ref_apply (X : (⟨3, ![4, 4096, 1024]⟩ : Shape).Idx → EReal) (Wfc : (⟨2, ![4096, 1024]⟩ : Shape).Idx → EReal)
    (Wpr : (⟨2, ![1024, 4096]⟩ : Shape).Idx → EReal) (b : Fin 4) (s : Fin 4096) (e : Fin 1024) :
    Cert.ReferenceIdeal.Read.val_main_v65 (F := Ideal) X Wfc Wpr (ix3 b s e)
      = yFull (rowX X b s) (u1of Wfc) (u2of Wpr) e.val := by
  rw [Read.val_main_v65_apply]
  have hs : ∀ k : Fin 4096, Read.val_main_v63 (F := Ideal) X Wfc (Read.lidx_main_v65 (ix3 b s e) k)
        * Read.val_main_v64 (F := Ideal) Wpr (Read.ridx_main_v65 (ix3 b s e) k)
      = act (h1Full (rowX X b s) (u1of Wfc) k.val) * u2of Wpr k.val e.val := fun k => by
    have hl : Read.lidx_main_v65 (ix3 b s e) k = ix3 b s k :=
      funext fun a => Fin.ext (by match a with | ⟨0, _⟩ => rfl | ⟨1, _⟩ => rfl | ⟨2, _⟩ => rfl)
    have hr : Read.ridx_main_v65 (ix3 b s e) k = ix2 e k :=
      funext fun a => Fin.ext (by match a with | ⟨0, _⟩ => rfl | ⟨1, _⟩ => rfl)
    rw [hl, hr, v63_at, Read.val_main_v64_apply]
    unfold u2of
    rw [nat2_ix2, nat2_ix2]
    rfl
  simp only [hs]
  unfold yFull
  exact Fin.sum_univ_eq_sum_range (fun f => act (h1Full (rowX X b s) (u1of Wfc) f) * u2of Wpr f e.val) 4096

/-- The reference's result is the specification, as functions of the index. -/
theorem ref_eq_G (X : (⟨3, ![4, 4096, 1024]⟩ : Shape).Idx → EReal) (Wfc : (⟨2, ![4096, 1024]⟩ : Shape).Idx → EReal)
    (Wpr : (⟨2, ![1024, 4096]⟩ : Shape).Idx → EReal) :
    Cert.ReferenceIdeal.Read.val_main_v65 (F := Ideal) X Wfc Wpr = G X Wfc Wpr := by
  funext i
  exact (congrArg (Cert.ReferenceIdeal.Read.val_main_v65 (F := Ideal) X Wfc Wpr) (eq_ix3 i)).trans
    (ref_apply X Wfc Wpr (i 0) (i 1) (i 2))

end Cert.TriMlp.RefG

end
-- ==== Proof.KBridge.lean ====
/-
  One row of one block of the kernel's output is the specification's row.

  The block's row r at grid point t is row 4096 b + s of the recast input.  What the body stores in columns below
  768 is the early-stopped row form over the staged weights; the staged weights are the masked weights wherever
  the early-stopped sums read them; the early-stopped form is the full form because every dropped term meets a
  zero of a pattern; and columns from 768 on are stored as zero, which is what the full form gives there since
  the second pattern vanishes on those columns.
-/
import proofs.«121291_j13245679140988_2_alg».proof.Proof.KHost
import proofs.«121291_j13245679140988_2_alg».proof.Proof.KRow
import proofs.«121291_j13245679140988_2_alg».proof.Proof.Alg
import proofs.«121291_j13245679140988_2_alg».proof.Proof.AlgCongr
import proofs.«121291_j13245679140988_2_alg».proof.Proof.MaskZero
import proofs.«121291_j13245679140988_2_alg».proof.Proof.RefG

noncomputable section

namespace Cert.TriMlp.KBridge

open Idealize.ShloMosaic Idealize.ShloMosaic.TcCoe Idealize.SL.Sem
open Cert.KernelIdeal Cert.KernelIdeal.Gen Idealize.ShloMosaic.ValueIdx Cert.TriMlp Cert.TriMlp.KHost

/-- The first masked weight vanishes at (input e, middle f) from e = 128 (f / 512 + 1) on: there 4 e > f. -/
theorem u1_zero (Wfc : (⟨2, ![4096, 1024]⟩ : Shape).Idx → EReal) :
    ∀ e f, f < 3072 → 128 * (f / 512 + 1) ≤ e → u1of Wfc e f = 0 := by
  intro e f hf he
  unfold u1of
  by_cases h : e < 1024
  · rw [MaskZero.M1_zero f e (by omega) h (by omega), mul_zero]
  · have hz : nat2 M1 f e = 0 := by
      unfold nat2
      rw [dif_neg (fun hh => h hh.2)]
    rw [hz, mul_zero]

/-- The second masked weight vanishes at (middle f, output e < 768) from f = 512 (e / 128 + 1) on: there f > 4 e. -/
theorem u2_zero (Wpr : (⟨2, ![1024, 4096]⟩ : Shape).Idx → EReal) :
    ∀ f e, e < 768 → 512 * (e / 128 + 1) ≤ f → u2of Wpr f e = 0 := by
  intro f e he hf
  unfold u2of
  by_cases h : f < 4096
  · rw [MaskZero.M2_zero e f (by omega) h (by omega), mul_zero]
  · have hz : nat2 M2 e f = 0 := by
      unfold nat2
      rw [dif_neg (fun hh => h hh.2)]
    rw [hz, mul_zero]

/-- The second masked weight vanishes in every output column from 768 on. -/
theorem u2_zero_tail (Wpr : (⟨2, ![1024, 4096]⟩ : Shape).Idx → EReal) :
    ∀ f e, 768 ≤ e → u2of Wpr f e = 0 := by
  intro f e he
  unfold u2of
  by_cases h : e < 1024 ∧ f < 4096
  · rw [MaskZero.M2_zero e f h.1 h.2 (by omega), mul_zero]
  · have hz : nat2 M2 e f = 0 := by
      unfold nat2
      rw [dif_neg h]
    rw [hz, mul_zero]

variable (m : (ℓ : Loc nD τ sig) → Buf (Elt Ideal) ℓ)

/-- Where the early-stopped sums read them, the staged weights are the masked weights. -/
theorem w1V_eq (c : Dev nD) (e f : ℕ) (he : e < 768) (hf : f < 3072) :
    nat2 (w1V m c) e f = u1of (aFc m c) e f := by
  unfold u1of
  rw [nat2_of_lt _ he hf, nat2_of_lt _ (by omega : f < 4096) (by omega : e < 1024),
    nat2_of_lt _ (by omega : f < 4096) (by omega : e < 1024)]
  exact V45_apply m c ⟨e, he⟩ ⟨f, hf⟩

theorem w2V_eq (c : Dev nD) (f e : ℕ) (hf : f < 3072) (he : e < 768) :
    nat2 (w2V m c) f e = u2of (aPr m c) f e := by
  unfold u2of
  rw [nat2_of_lt _ hf he, nat2_of_lt _ (by omega : e < 1024) (by omega : f < 4096),
    nat2_of_lt _ (by omega : e < 1024) (by omega : f < 4096)]
  exact V47_apply m c ⟨f, hf⟩ ⟨e, he⟩

/-- Row r of a block whose first 768 columns are row (b, s) of the input: what the body stores there, zero
    from column 768 on, is the specification at (b, s, ·). -/
theorem block_eq_G (c : Dev nD) (x : Vec Ideal S256x768 .f32) (r : Fin 256) (b : Fin 4) (s : Fin 4096)
    (hx : ∀ cc : Fin 768, x (ix2 r cc) = aX m c (ix3 b s (⟨cc.val, by omega⟩ : Fin 1024))) (e : Fin 1024) :
    (if h : e.val < 768 then
        KI.kOut (F := Ideal) x
          (KI.subBlk 0 0 (by norm_num) (by norm_num) (w1V m c)) (KI.subBlk 0 512 (by norm_num) (by norm_num) (w1V m c))
          (KI.subBlk 0 1024 (by norm_num) (by norm_num) (w1V m c)) (KI.subBlk 0 1536 (by norm_num) (by norm_num) (w1V m c))
          (KI.subBlk 0 2048 (by norm_num) (by norm_num) (w1V m c)) (KI.subBlk 0 2560 (by norm_num) (by norm_num) (w1V m c))
          (KI.subBlk 0 0 (by norm_num) (by norm_num) (w2V m c)) (KI.subBlk 0 128 (by norm_num) (by norm_num) (w2V m c))
          (KI.subBlk 0 256 (by norm_num) (by norm_num) (w2V m c)) (KI.subBlk 0 384 (by norm_num) (by norm_num) (w2V m c))
          (KI.subBlk 0 512 (by norm_num) (by norm_num) (w2V m c)) (KI.subBlk 0 640 (by norm_num) (by norm_num) (w2V m c))
          (ix2 r (⟨e.val, h⟩ : Fin 768))
      else (0 : EReal))
      = G (aX m c) (aFc m c) (aPr m c) (ix3 b s e) := by
  have hρ : ∀ cc, cc < 768 → rowX (aX m c) b s cc = KHn.rowOf x r cc := by
    intro cc hcc
    unfold rowX KHn.rowOf
    rw [dif_pos (by omega : cc < 1024), dif_pos hcc]
    exact (hx ⟨cc, hcc⟩).symm
  have hG : G (aX m c) (aFc m c) (aPr m c) (ix3 b s e)
      = yTrunc (KHn.rowOf x r) (u1of (aFc m c)) (u2of (aPr m c)) e.val :=
    yFull_eq_yTrunc (rowX (aX m c) b s) (KHn.rowOf x r) (u1of (aFc m c)) (u2of (aPr m c)) hρ
      (u1_zero _) (u2_zero _) (u2_zero_tail _) e.val
  rw [hG]
  by_cases h : e.val < 768
  · rw [dif_pos h]
    refine (KRow.kOut_row x (w1V m c) (w2V m c) r ⟨e.val, h⟩).trans ?_
    exact yTrunc_congr (KHn.rowOf x r) _ _ _ _ (fun e' f he' hf => w1V_eq m c e' f he' hf)
      (fun f e' hf he' => w2V_eq m c f e' hf he') e.val
  · rw [dif_neg h]
    unfold yTrunc
    rw [if_neg h]

end Cert.TriMlp.KBridge

end
-- ==== Proof.KFinal.lean ====
/-
  The kernel's result array.

  Every grid point writes back a 256 x 1024 block: rows 256 t to 256 t + 255 of the 16384 x 1024 output, all
  columns.  Row 256 t + r is row (b, s) = ((256 t + r) / 4096, (256 t + r) % 4096) of the 4 x 4096 x 1024 problem, and
  the block's row r is the specification at (b, s, ·).  The 64 blocks cover the output, so the output is the
  specification recast to 16384 x 1024; the program's last step recasts it back, and a recast there and back is
  the identity.  So the result is the specification itself.
-/
import proofs.«121291_j13245679140988_2_alg».proof.Proof.KIBody
import proofs.«121291_j13245679140988_2_alg».proof.Proof.KIAfter
import proofs.«121291_j13245679140988_2_alg».proof.Proof.KCover
import proofs.«121291_j13245679140988_2_alg».proof.Proof.KBridge
import Idealize.ShloMosaic.Lib.StableHlo.Run

noncomputable section

namespace Cert.TriMlp.KFinal

open Idealize.ShloMosaic Idealize.ShloMosaic.TcCoe Idealize.SL.Sem Idealize.ShloMosaic.StableHlo
open Cert.KernelIdeal Cert.KernelIdeal.Gen Idealize.ShloMosaic.ValueIdx
open Cert.TriMlp Cert.TriMlp.KHost Cert.TriMlp.KIBody

variable (m : (ℓ : Loc nD τ sig) → Buf (Elt Ideal) ℓ) (ρ : Dev nD → PrngReg)

/-- The specification of a core's arguments. -/
abbrev Gm (c : Dev nD) : (⟨3, ![4, 4096, 1024]⟩ : Shape).Idx → EReal := G (aX m c) (aFc m c) (aPr m c)

/-- The output array in closed form: the specification recast to 16384 x 1024. -/
def Kfun (c : Dev nD) : (⟨2, ![16384, 1024]⟩ : Shape).Idx → EReal :=
  shapeCast S16384x1024 (Gm m c) shapeCasts_S4x4096x1024_S16384x1024

/-- Row 4096 b + s of the recast specification is its row (b, s). -/
theorem Kfun_apply (c : Dev nD) (b : Fin 4) (s : Fin 4096) (e : Fin 1024) (R : Fin 16384) (hR : R.val = b.val * 4096 + s.val) :
    Kfun m c (ix2 R e) = Gm m c (ix3 b s e) := by
  unfold Kfun
  refine shapeCast_apply _ _ (ix2 R e) (ix3 b s e) ?_
  rw [Shape.rowMajor_val_three, Shape.rowMajor_val_two]
  show (b.val * 4096 + s.val) * 1024 + e.val = R.val * 1024 + e.val
  rw [hR]

/-- Row r of the input block at point t is row ((256 t + r) / 4096, (256 t + r) % 4096) of the input. -/
theorem xfull_row (c : Dev nD) (t : Fin cfg0.N) (r : Fin 256) (b : Fin 4) (s : Fin 4096)
    (hbs : 256 * t.val + r.val = b.val * 4096 + s.val) (cc : Fin 768) :
    xfull m c t (ix2 r cc) = aX m c (ix3 b s (⟨cc.val, by omega⟩ : Fin 1024)) := by
  unfold xfull
  exact V48_apply m c b s ⟨cc.val, by omega⟩ _ hbs

/-- WHAT POINT t WRITES BACK is block t of the closed form. -/
theorem flushed3_eq (c : Dev nD) (t : Fin cfg0.N) :
    (dats m 0 c).flushed 3 t = ((cfg0.win 3).blk t).view.read (Elt Ideal) (Kfun m c) := by
  funext j
  have ht : t.val < 64 := KCover.t_lt t
  have hj0 : (j 0).val < 256 := KCover.j3_lt0 t j
  have hj1 : (j 1).val < 1024 := KCover.j3_lt1 t j
  have hL : (dats m 0 c).flushed 3 t j
      = (dats m 0 c).after 3 t (ix2 (⟨(j 0).val, hj0⟩ : Fin 256) (⟨(j 1).val, hj1⟩ : Fin 1024)) :=
    congrArg ((dats m 0 c).after 3 t) (funext fun a => by
      match a with
      | ⟨0, _⟩ => rfl
      | ⟨1, _⟩ => rfl)
  rw [hL]
  show _ = Kfun m c (((cfg0.win 3).blk t).view.emb j)
  rw [KCover.emb3 t j, KIAfter.after3_apply m c t ⟨(j 0).val, hj0⟩ ⟨(j 1).val, hj1⟩]
  have hR : 256 * t.val + (j 0).val < 16384 := by omega
  rw [Kfun_apply m c ⟨(256 * t.val + (j 0).val) / 4096, by omega⟩ ⟨(256 * t.val + (j 0).val) % 4096, Nat.mod_lt _ (by norm_num)⟩
    ⟨(j 1).val, hj1⟩ ⟨256 * t.val + (j 0).val, hR⟩ (by show 256 * t.val + (j 0).val = (256 * t.val + (j 0).val) / 4096 * 4096 + (256 * t.val + (j 0).val) % 4096; omega)]
  rw [KCover.iblk1 m c t, KCover.iblk2 m c t]
  exact KBridge.block_eq_G m c (xfull m c t) ⟨(j 0).val, hj0⟩ _ _
    (fun cc => xfull_row m c t ⟨(j 0).val, hj0⟩ _ _ (by show 256 * t.val + (j 0).val = (256 * t.val + (j 0).val) / 4096 * 4096 + (256 * t.val + (j 0).val) % 4096; omega) cc)
    ⟨(j 1).val, hj1⟩

/-- THE OUTPUT ARRAY after the run: the closed form (the blocks cover it). -/
theorem final3 (c : Dev nD) : (dats m 0 c).arrAt 3 cfg0.N = Kfun m c :=
  (dats m 0 c).arrAt_eq_of_cover 3 (Kfun m c) (fun t _ => flushed3_eq m c t) KCover.cover3

/-- THE RESULT: the program's last step recasts the output array back to 4 x 4096 x 1024. -/
theorem tail_v50 (c : Dev nD) :
    Pipeline.afterTail₀ cfgs (dats m) 0 (V0 m) [hostOps1] c main_v50 = Gm m c := by
  have h49 : Pipeline.withArrays (cfgs 0).spec c (V0 m c) (fun w => (dats m 0 c).arrAt w (cfgs 0).N) (Proc.devRef .tc main_v49)
      = Kfun m c :=
    (Pipeline.withArrays_arr spec0 launch0.win.arr_inj c _ _ 3).trans (final3 m c)
  have h50 : Pipeline.afterTail₀ cfgs (dats m) 0 (V0 m) [hostOps1] c main_v50
      = shapeCast S4x4096x1024 (Pipeline.withArrays (cfgs 0).spec c (V0 m c) (fun w => (dats m 0 c).arrAt w (cfgs 0).N) (Proc.devRef .tc main_v49))
          shapeCasts_S16384x1024_S4x4096x1024 := by
    unfold Pipeline.afterTail₀
    show StableHlo.after hostOps1 _ (Proc.devRef .tc main_v50) = _
    after_results
    rfl
  rw [h50, h49]
  exact shapeCast_shapeCast _ _ _

/-- The kernel's run with its result named: every weakly fair execution terminates with the result at the
    specification of the arguments, and the arguments unchanged. -/
theorem run : θ_run defs (onTc (τ := τ) (main (F := Ideal))) ⟨m, fun _ => 0, ρ⟩ (fun r => ∀ c : Dev nD,
      r.2.mem ((c.tc : Thread nD τ).loc main_v50) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v50 (Pipeline.mem_restRefs_of main_v50 (by decide) (by decide))).trans (tail_v50 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.TriMlp.KFinal

end
-- ==== Proof.lean ====
/-
  The certificate of a two-layer perceptron with per-group normalization and triangular zero patterns.

  Input rows of 1024 numbers are normalized in sixteen groups of 64 (mean removed, scaled by the reciprocal square
  root of the variance plus a small constant), multiplied by a 4096 x 1024 weight matrix carrying a zero pattern,
  clamped below at zero and squared, and multiplied by a 1024 x 4096 weight matrix carrying a zero pattern.  The
  kernel only ever touches the first 768 input columns, the first 3072 middle columns and the first 768 output
  columns, contracts each tile of outputs only over the inputs its pattern leaves nonzero, and writes zero in the
  remaining output columns; the reference contracts over everything.  On the extended reals the two agree: a term
  left out is a product with a zero of a pattern, and a product with zero is zero whatever the other factor.  The
  finiteness precondition is not used.

  The three frames: each kernel program's from its body's triple and the pipeline's launch theorem, the reference's
  from its run.  The idealization rewrote nothing, so its conjunct is trivial.
-/
import proofs.«121291_j13245679140988_2_alg».proof.Defs
import proofs.«121291_j13245679140988_2_alg».proof.Proof.Gen.Kernel
import proofs.«121291_j13245679140988_2_alg».proof.Proof.Gen.KernelIdeal
import proofs.«121291_j13245679140988_2_alg».proof.Proof.Gen.ReferenceIdeal
import proofs.«121291_j13245679140988_2_alg».proof.Proof.Gen.Pre_finite_inputs
import proofs.«121291_j13245679140988_2_alg».proof.Proof.Gen.ReferenceIdeal.Run
import proofs.«121291_j13245679140988_2_alg».proof.Proof.Gen.ReferenceIdeal.Read
import proofs.«121291_j13245679140988_2_alg».proof.Proof.KBody
import proofs.«121291_j13245679140988_2_alg».proof.Proof.KIBody
import proofs.«121291_j13245679140988_2_alg».proof.Proof.KFinal
import proofs.«121291_j13245679140988_2_alg».proof.Proof.RefG

noncomputable section

namespace Cert.Proof

open Idealize.ShloMosaic Idealize.SL.Sem

/-- The kernel as printed runs to the end, faults nowhere and leaves its arguments unchanged. -/
theorem frame_k : Cert.frame_Kernel := fun m ρ _ => Cert.TriMlp.KBody.frame m ρ

/-- So does its idealization. -/
theorem frame_ki : Cert.frame_KernelIdeal := fun m ρ _ => Cert.TriMlp.KIBody.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals both programs, from memories agreeing on the arguments, end with the result at the
    specification of the arguments: the kernel by its run read back block by block, the reference by its run read
    operation by operation. -/
theorem algebraic : Cert.algebraic_KernelIdeal_ReferenceIdeal := by
  intro m ρ m' ρ' _ hagree
  refine ⟨fun c => Cert.TriMlp.KFinal.Gm m c, Cert.TriMlp.KFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, Cert.TriMlp.RefG.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
